-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 83
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S1x64, .f32⟩
  | .hbm, ⟨82, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | .local _ .vmem, ⟨32, _⟩ => ⟨S64x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x1, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call4_cst : Ref sig .tc := ⟨.hbm, 108, rfl⟩
abbrev main_call4_v0 : Ref sig .tc := ⟨.hbm, 109, rfl⟩
abbrev main_v75 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result array named.

  The program is six pipelined regions among stretches of host operations. Its generated frame follows the contents
  of every buffer from the launch through each stretch and each region (`Gen.W0` … `Gen.W14`) and then keeps, of the
  final contents `Gen.W14`, only the argument arrays. Here the same launch over the same segments is read once more at
  the end, at the result buffer too: every weakly fair execution terminates, nothing faulting, with the result array
  at `Gen.W14`'s value there and the arguments as launched.
-/
import proofs.«146982_j80977313399685_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at what the last
    region's write-backs leave (`Gen.W14` at the result buffer) and every argument array as launched. -/
theorem run_result : θ_run defs (onTc (τ := τ) (main (F := F))) ⟨m, fun _ => 0, ρ⟩ (fun r => ∀ c : Dev nD,
      r.2.mem ((c.tc : Thread nD τ).loc main_v53) = W14 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v53 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.Hand

end
-- ==== Proof.Carry.lean ====
/-
  What each step of the idealized kernel program leaves unchanged.

  The program's buffers are followed from the launch through five stretches of host operations (the degree scales),
  then region, stretch, region, region, stretch, region, region, stretch, region (`Gen.W0` … `Gen.W14`). A region
  changes its result array only; a stretch of host operations changes the buffers its operations write, which are
  listed here. So a buffer outside those lists holds at a later boundary what it held at an earlier one: from the
  launch to the first region's entry (`kept5`), and from there to each later boundary (`since6` … `since13`).
-/
import proofs.«146982_j80977313399685_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The regions -/

/-- Region 0 changes its result array only: its operand arrays are read, every other buffer is not its. -/
theorem keep6 (c : Dev nD) (b : Ref sig .tc) (hb : b ≠ main_v15) :
    W6 m ρ c (Proc.devRef .tc b) = W5 m ρ c (Proc.devRef .tc b) := by
  by_cases h0 : b = main_arg0
  · subst h0; exact (W6_arr m ρ c 0).trans (((dat0 (V5 m ρ) c).arrAt_in 0 rfl _).trans (A_eq0 (V5 m ρ) c 0))
  by_cases h1 : b = main_v13
  · subst h1; exact (W6_arr m ρ c 1).trans (((dat0 (V5 m ρ) c).arrAt_in 1 rfl _).trans (A_eq0 (V5 m ρ) c 1))
  by_cases h2 : b = main_arg1
  · subst h2; exact (W6_arr m ρ c 2).trans (((dat0 (V5 m ρ) c).arrAt_in 2 rfl _).trans (A_eq0 (V5 m ρ) c 2))
  exact W6_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-- Region 1 changes its result array only: its operand arrays are read, every other buffer is not its. -/
theorem keep8 (c : Dev nD) (b : Ref sig .tc) (hb : b ≠ main_v27) :
    W8 m ρ c (Proc.devRef .tc b) = W7 m ρ c (Proc.devRef .tc b) := by
  by_cases h0 : b = main_v25
  · subst h0; exact (W8_arr m ρ c 0).trans (((dat1 (V7 m ρ) c).arrAt_in 0 rfl _).trans (A_eq1 (V7 m ρ) c 0))
  by_cases h1 : b = main_v14
  · subst h1; exact (W8_arr m ρ c 1).trans (((dat1 (V7 m ρ) c).arrAt_in 1 rfl _).trans (A_eq1 (V7 m ρ) c 1))
  by_cases h2 : b = main_v26
  · subst h2; exact (W8_arr m ρ c 2).trans (((dat1 (V7 m ρ) c).arrAt_in 2 rfl _).trans (A_eq1 (V7 m ρ) c 2))
  exact W8_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-- Region 2 changes its result array only: its operand arrays are read, every other buffer is not its. -/
theorem keep9 (c : Dev nD) (b : Ref sig .tc) (hb : b ≠ main_v28) :
    W9 m ρ c (Proc.devRef .tc b) = W8 m ρ c (Proc.devRef .tc b) := by
  by_cases h0 : b = main_v27
  · subst h0; exact (W9_arr m ρ c 0).trans (((dat2 (V8 m ρ) c).arrAt_in 0 rfl _).trans (A_eq2 (V8 m ρ) c 0))
  by_cases h1 : b = main_v13
  · subst h1; exact (W9_arr m ρ c 1).trans (((dat2 (V8 m ρ) c).arrAt_in 1 rfl _).trans (A_eq2 (V8 m ρ) c 1))
  by_cases h2 : b = main_arg3
  · subst h2; exact (W9_arr m ρ c 2).trans (((dat2 (V8 m ρ) c).arrAt_in 2 rfl _).trans (A_eq2 (V8 m ρ) c 2))
  exact W9_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-- Region 3 changes its result array only: its operand arrays are read, every other buffer is not its. -/
theorem keep11 (c : Dev nD) (b : Ref sig .tc) (hb : b ≠ main_v40) :
    W11 m ρ c (Proc.devRef .tc b) = W10 m ρ c (Proc.devRef .tc b) := by
  by_cases h0 : b = main_v38
  · subst h0; exact (W11_arr m ρ c 0).trans (((dat3 (V10 m ρ) c).arrAt_in 0 rfl _).trans (A_eq3 (V10 m ρ) c 0))
  by_cases h1 : b = main_v14
  · subst h1; exact (W11_arr m ρ c 1).trans (((dat3 (V10 m ρ) c).arrAt_in 1 rfl _).trans (A_eq3 (V10 m ρ) c 1))
  by_cases h2 : b = main_v39
  · subst h2; exact (W11_arr m ρ c 2).trans (((dat3 (V10 m ρ) c).arrAt_in 2 rfl _).trans (A_eq3 (V10 m ρ) c 2))
  exact W11_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-- Region 4 changes its result array only: its operand arrays are read, every other buffer is not its. -/
theorem keep12 (c : Dev nD) (b : Ref sig .tc) (hb : b ≠ main_v41) :
    W12 m ρ c (Proc.devRef .tc b) = W11 m ρ c (Proc.devRef .tc b) := by
  by_cases h0 : b = main_v40
  · subst h0; exact (W12_arr m ρ c 0).trans (((dat4 (V11 m ρ) c).arrAt_in 0 rfl _).trans (A_eq4 (V11 m ρ) c 0))
  by_cases h1 : b = main_v13
  · subst h1; exact (W12_arr m ρ c 1).trans (((dat4 (V11 m ρ) c).arrAt_in 1 rfl _).trans (A_eq4 (V11 m ρ) c 1))
  by_cases h2 : b = main_arg5
  · subst h2; exact (W12_arr m ρ c 2).trans (((dat4 (V11 m ρ) c).arrAt_in 2 rfl _).trans (A_eq4 (V11 m ρ) c 2))
  exact W12_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-- Region 5 changes its result array only: its operand arrays are read, every other buffer is not its. -/
theorem keep14 (c : Dev nD) (b : Ref sig .tc) (hb : b ≠ main_v53) :
    W14 m ρ c (Proc.devRef .tc b) = W13 m ρ c (Proc.devRef .tc b) := by
  by_cases h0 : b = main_v51
  · subst h0; exact (W14_arr m ρ c 0).trans (((dat5 (V13 m ρ) c).arrAt_in 0 rfl _).trans (A_eq5 (V13 m ρ) c 0))
  by_cases h1 : b = main_v14
  · subst h1; exact (W14_arr m ρ c 1).trans (((dat5 (V13 m ρ) c).arrAt_in 1 rfl _).trans (A_eq5 (V13 m ρ) c 1))
  by_cases h2 : b = main_v52
  · subst h2; exact (W14_arr m ρ c 2).trans (((dat5 (V13 m ρ) c).arrAt_in 2 rfl _).trans (A_eq5 (V13 m ρ) c 2))
  exact W14_of_ne m ρ c b fun w => by
    match w with
    | ⟨0, _⟩ => exact fun e => h0 e.symm
    | ⟨1, _⟩ => exact fun e => h1 e.symm
    | ⟨2, _⟩ => exact fun e => h2 e.symm
    | ⟨3, _⟩ => exact fun e => hb e.symm

/-! ## The stretches of host operations: what each writes -/

abbrev written0 : List (Ref sig .tc) :=
  [main_cst, main_v0, main_cst_0, main_v1, main_v2, main_v3, main_cst_1, main_v4, main_v5, main_v6, main_cst_2]
abbrev written0_1 : List (Ref sig .tc) := [main_call0_v0, main_call0_v1, main_v7]
abbrev written0_2 : List (Ref sig .tc) := [main_cst_3, main_v8, main_v9, main_cst_4]
abbrev written0_3 : List (Ref sig .tc) := [main_call1_v0, main_call1_v1, main_v10]
abbrev written0_4 : List (Ref sig .tc) := [main_cst_5, main_v11, main_v12, main_v13, main_v14]
abbrev written1 : List (Ref sig .tc) :=
  [main_c, main_v16, main_v17, main_c_6, main_v18, main_v19, main_v20, main_v21, main_v22, main_cst_7, main_v23,
    main_v24, main_v25, main_v26]
abbrev written3 : List (Ref sig .tc) :=
  [main_c_8, main_v29, main_v30, main_c_9, main_v31, main_v32, main_v33, main_v34, main_v35, main_cst_10, main_v36,
    main_v37, main_v38, main_v39]
abbrev written5 : List (Ref sig .tc) :=
  [main_c_11, main_v42, main_v43, main_c_12, main_v44, main_v45, main_v46, main_v47, main_v48, main_cst_13, main_v49,
    main_v50, main_v51, main_v52]

theorem hostOps0_writes : (hostOps0 : List (HloOp τ sig (Elt F))).Forall fun op =>
    op.writes ⊆ (written0.map (Proc.devRef (τ := τ) .tc)).toFinset := by
  simp only [hostOps0, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

theorem hostOps0_1_writes : (hostOps0_1 : List (HloOp τ sig (Elt F))).Forall fun op =>
    op.writes ⊆ (written0_1.map (Proc.devRef (τ := τ) .tc)).toFinset := by
  simp only [hostOps0_1, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

theorem hostOps0_2_writes : (hostOps0_2 : List (HloOp τ sig (Elt F))).Forall fun op =>
    op.writes ⊆ (written0_2.map (Proc.devRef (τ := τ) .tc)).toFinset := by
  simp only [hostOps0_2, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

theorem hostOps0_3_writes : (hostOps0_3 : List (HloOp τ sig (Elt F))).Forall fun op =>
    op.writes ⊆ (written0_3.map (Proc.devRef (τ := τ) .tc)).toFinset := by
  simp only [hostOps0_3, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

theorem hostOps0_4_writes : (hostOps0_4 : List (HloOp τ sig (Elt F))).Forall fun op =>
    op.writes ⊆ (written0_4.map (Proc.devRef (τ := τ) .tc)).toFinset := by
  simp only [hostOps0_4, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

theorem hostOps1_writes : (hostOps1 : List (HloOp τ sig (Elt F))).Forall fun op =>
    op.writes ⊆ (written1.map (Proc.devRef (τ := τ) .tc)).toFinset := by
  simp only [hostOps1, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

theorem hostOps3_writes : (hostOps3 : List (HloOp τ sig (Elt F))).Forall fun op =>
    op.writes ⊆ (written3.map (Proc.devRef (τ := τ) .tc)).toFinset := by
  simp only [hostOps3, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

theorem hostOps5_writes : (hostOps5 : List (HloOp τ sig (Elt F))).Forall fun op =>
    op.writes ⊆ (written5.map (Proc.devRef (τ := τ) .tc)).toFinset := by
  simp only [hostOps5, List.Forall]
  repeat' apply And.intro
  all_goals (simp only [StableHlo.nullary_writes, StableHlo.unary_writes, StableHlo.binary_writes,
    StableHlo.ternary_writes, StableHlo.reshape_writes, Finset.singleton_subset_iff, List.mem_toFinset]
             exact List.mem_map_of_mem (by decide))

/-! ## From the launch to the first region's entry -/

/-- Everything the five stretches before the first region write. -/
abbrev touched5 : List (Ref sig .tc) := written0 ++ written0_1 ++ written0_2 ++ written0_3 ++ written0_4

/-- A buffer none of them writes enters the first region as launched. -/
theorem kept5 (c : Dev nD) (b : Ref sig .tc) (h : b ∉ touched5) :
    W5 m ρ c (Proc.devRef .tc b) = m ((c : Thread nD τ).loc b) := by
  simp only [touched5, List.mem_append, not_or] at h
  obtain ⟨⟨⟨⟨h0, h1⟩, h2⟩, h3⟩, h4⟩ := h
  exact (StableHlo.after_of_writes_sub hostOps0_4 _ hostOps0_4_writes h4).trans
    ((StableHlo.after_of_writes_sub hostOps0_3 _ hostOps0_3_writes h3).trans
    ((StableHlo.after_of_writes_sub hostOps0_2 _ hostOps0_2_writes h2).trans
    ((StableHlo.after_of_writes_sub hostOps0_1 _ hostOps0_1_writes h1).trans
    (StableHlo.after_of_writes_sub hostOps0 _ hostOps0_writes h0))))

/-! ## From the first region's entry on -/

theorem keep7 (c : Dev nD) (b : Ref sig .tc) (h : b ∉ written1) :
    W7 m ρ c (Proc.devRef .tc b) = W6 m ρ c (Proc.devRef .tc b) :=
  StableHlo.after_of_writes_sub hostOps1 _ hostOps1_writes h
theorem keep10 (c : Dev nD) (b : Ref sig .tc) (h : b ∉ written3) :
    W10 m ρ c (Proc.devRef .tc b) = W9 m ρ c (Proc.devRef .tc b) :=
  StableHlo.after_of_writes_sub hostOps3 _ hostOps3_writes h
theorem keep13 (c : Dev nD) (b : Ref sig .tc) (h : b ∉ written5) :
    W13 m ρ c (Proc.devRef .tc b) = W12 m ρ c (Proc.devRef .tc b) :=
  StableHlo.after_of_writes_sub hostOps5 _ hostOps5_writes h

/-- What is written between the first region's entry and each later boundary. -/
abbrev touched6 : List (Ref sig .tc) := [main_v15]
abbrev touched7 : List (Ref sig .tc) := written1 ++ touched6
abbrev touched8 : List (Ref sig .tc) := main_v27 :: touched7
abbrev touched9 : List (Ref sig .tc) := main_v28 :: touched8
abbrev touched10 : List (Ref sig .tc) := written3 ++ touched9
abbrev touched11 : List (Ref sig .tc) := main_v40 :: touched10
abbrev touched12 : List (Ref sig .tc) := main_v41 :: touched11
abbrev touched13 : List (Ref sig .tc) := written5 ++ touched12

theorem since6 (c : Dev nD) (b : Ref sig .tc) (h : b ∉ touched6) :
    W6 m ρ c (Proc.devRef .tc b) = W5 m ρ c (Proc.devRef .tc b) :=
  keep6 m ρ c b (List.ne_of_not_mem_cons h)
theorem since7 (c : Dev nD) (b : Ref sig .tc) (h : b ∉ touched7) :
    W7 m ρ c (Proc.devRef .tc b) = W5 m ρ c (Proc.devRef .tc b) :=
  (keep7 m ρ c b fun hm => h (List.mem_append_left _ hm)).trans (since6 m ρ c b fun hm => h (List.mem_append_right _ hm))
theorem since8 (c : Dev nD) (b : Ref sig .tc) (h : b ∉ touched8) :
    W8 m ρ c (Proc.devRef .tc b) = W5 m ρ c (Proc.devRef .tc b) :=
  (keep8 m ρ c b (List.ne_of_not_mem_cons h)).trans (since7 m ρ c b (List.not_mem_of_not_mem_cons h))
theorem since9 (c : Dev nD) (b : Ref sig .tc) (h : b ∉ touched9) :
    W9 m ρ c (Proc.devRef .tc b) = W5 m ρ c (Proc.devRef .tc b) :=
  (keep9 m ρ c b (List.ne_of_not_mem_cons h)).trans (since8 m ρ c b (List.not_mem_of_not_mem_cons h))
theorem since10 (c : Dev nD) (b : Ref sig .tc) (h : b ∉ touched10) :
    W10 m ρ c (Proc.devRef .tc b) = W5 m ρ c (Proc.devRef .tc b) :=
  (keep10 m ρ c b fun hm => h (List.mem_append_left _ hm)).trans (since9 m ρ c b fun hm => h (List.mem_append_right _ hm))
theorem since11 (c : Dev nD) (b : Ref sig .tc) (h : b ∉ touched11) :
    W11 m ρ c (Proc.devRef .tc b) = W5 m ρ c (Proc.devRef .tc b) :=
  (keep11 m ρ c b (List.ne_of_not_mem_cons h)).trans (since10 m ρ c b (List.not_mem_of_not_mem_cons h))
theorem since12 (c : Dev nD) (b : Ref sig .tc) (h : b ∉ touched12) :
    W12 m ρ c (Proc.devRef .tc b) = W5 m ρ c (Proc.devRef .tc b) :=
  (keep12 m ρ c b (List.ne_of_not_mem_cons h)).trans (since11 m ρ c b (List.not_mem_of_not_mem_cons h))
theorem since13 (c : Dev nD) (b : Ref sig .tc) (h : b ∉ touched13) :
    W13 m ρ c (Proc.devRef .tc b) = W5 m ρ c (Proc.devRef .tc b) :=
  (keep13 m ρ c b fun hm => h (List.mem_append_left _ hm)).trans (since12 m ρ c b fun hm => h (List.mem_append_right _ hm))

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«146982_j80977313399685_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«146982_j80977313399685_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.Spec.lean ====
/-
  One layer of a graph convolution on the extended reals, as two functions of whole arrays, with no program in sight.

  `scaleMatmul h s W` scales row r of the n×d array h by the r-th entry of the column s and multiplies the result by
  the d×o array W: entry (r, q) is the sum over k of (h(r, k) · s(r)) · W(k, q). `normBiasRelu a s b` scales row r of
  the n×o array a by s(r), adds the row vector b and cuts negative entries off at zero: entry (r, q) is
  max (a(r, q) · s(r) + b(q)) 0.

  Each is met twice. A kernel body applied to a block of rows (its column of scales re-shaped in place and broadcast
  across the block, its operands narrowed on the way into the matrix unit, which changes nothing on the extended
  reals; its bias row broadcast down the block) is the function on the block's shapes; the host's whole-array
  operations (a vector of scales broadcast into a column and then across the columns, dot_general, a bias vector
  broadcast into a row and then down the rows) are the function on the array's shapes. Both functions read, at row r,
  only row r of their row-indexed operands, so a block of rows of the result is the function of those rows.
  Sums on the extended reals are taken in any order and no law that needs finiteness is used.
-/
import Idealize.ShloMosaic.PureOps.Ideal.Laws
import Idealize.ShloMosaic.Lib.ValueIdx
import Idealize.ShloMosaic.Lib.Pipeline.Value
import Idealize.ShloMosaic.Lib.ValueLayout
import proofs.«146982_j80977313399685_1_alg».proof.Proof.LibBlockReads
import proofs.«146982_j80977313399685_1_alg».proof.Proof.LibMatProd
import proofs.«146982_j80977313399685_1_alg».proof.Proof.LibRowReductions
import proofs.«146982_j80977313399685_1_alg».proof.Proof.LibRowVector

open scoped BigOperators

noncomputable section

namespace Cert.GraphConv

open Idealize.ShloMosaic Idealize.ShloMosaic.ValueIdx Cert.Lib.MatProd

variable {n d o : Nat}

/-! ## The two functions -/

/-- Row r of h multiplied by the r-th entry of the column s. -/
def scaleRows (h : (⟨2, ![n, d]⟩ : Shape).Idx → EReal) (s : (⟨2, ![n, 1]⟩ : Shape).Idx → EReal) :
    (⟨2, ![n, d]⟩ : Shape).Idx → EReal :=
  fun j => h j * s (ix2 (j 0) 0)

theorem scaleRows_apply (h : (⟨2, ![n, d]⟩ : Shape).Idx → EReal) (s : (⟨2, ![n, 1]⟩ : Shape).Idx → EReal)
    (r : Fin n) (k : Fin d) : scaleRows h s (ix2 r k) = h (ix2 r k) * s (ix2 r 0) := rfl

/-- The rows of h scaled by s, times W. -/
def scaleMatmul (h : (⟨2, ![n, d]⟩ : Shape).Idx → EReal) (s : (⟨2, ![n, 1]⟩ : Shape).Idx → EReal)
    (W : (⟨2, ![d, o]⟩ : Shape).Idx → EReal) : (⟨2, ![n, o]⟩ : Shape).Idx → EReal :=
  matProd (scaleRows h s) W

/-- The rows of a scaled by s, plus the row b, negative entries cut off at zero (the zero kept as the word the
    programs write, which is never evaluated). -/
def normBiasRelu (a : (⟨2, ![n, o]⟩ : Shape).Idx → EReal) (s : (⟨2, ![n, 1]⟩ : Shape).Idx → EReal)
    (b : (⟨2, ![1, o]⟩ : Shape).Idx → EReal) : (⟨2, ![n, o]⟩ : Shape).Idx → EReal :=
  fun i => max (a i * s (ix2 (i 0) 0) + b (ix2 0 (i 1))) (Ideal.ofBits .f32 0x00000000#32)

theorem normBiasRelu_apply (a : (⟨2, ![n, o]⟩ : Shape).Idx → EReal) (s : (⟨2, ![n, 1]⟩ : Shape).Idx → EReal)
    (b : (⟨2, ![1, o]⟩ : Shape).Idx → EReal) (r : Fin n) (q : Fin o) :
    normBiasRelu a s b (ix2 r q) = max (a (ix2 r q) * s (ix2 r 0) + b (ix2 0 q)) (Ideal.ofBits .f32 0x00000000#32) := rfl

/-! ## Row r of the result reads row r of the operands -/

/-- If row y of h' is row r of h and the y-th scale of s' is the r-th of s, then row y of `scaleMatmul h' s' W` is
    row r of `scaleMatmul h s W`. -/
theorem scaleMatmul_rows {n' : Nat} (h : (⟨2, ![n, d]⟩ : Shape).Idx → EReal) (s : (⟨2, ![n, 1]⟩ : Shape).Idx → EReal)
    (h' : (⟨2, ![n', d]⟩ : Shape).Idx → EReal) (s' : (⟨2, ![n', 1]⟩ : Shape).Idx → EReal)
    (W : (⟨2, ![d, o]⟩ : Shape).Idx → EReal) (y : Fin n') (r : Fin n) (q : Fin o)
    (hh : ∀ k : Fin d, h' (ix2 y k) = h (ix2 r k)) (hs : s' (ix2 y 0) = s (ix2 r 0)) :
    scaleMatmul h' s' W (ix2 y q) = scaleMatmul h s W (ix2 r q) :=
  matProd_block (scaleRows h s) (scaleRows h' s') W W y q r q
    (fun k => by rw [scaleRows_apply, scaleRows_apply, hh k, hs]) (fun _ => rfl)

/-- The same for `normBiasRelu`, the bias row shared. -/
theorem normBiasRelu_rows {n' : Nat} (a : (⟨2, ![n, o]⟩ : Shape).Idx → EReal) (s : (⟨2, ![n, 1]⟩ : Shape).Idx → EReal)
    (a' : (⟨2, ![n', o]⟩ : Shape).Idx → EReal) (s' : (⟨2, ![n', 1]⟩ : Shape).Idx → EReal)
    (b : (⟨2, ![1, o]⟩ : Shape).Idx → EReal) (y : Fin n') (r : Fin n) (q : Fin o)
    (ha : a' (ix2 y q) = a (ix2 r q)) (hs : s' (ix2 y 0) = s (ix2 r 0)) :
    normBiasRelu a' s' b (ix2 y q) = normBiasRelu a s b (ix2 r q) := by
  rw [normBiasRelu_apply, normBiasRelu_apply, ha, hs]

/-! ## A kernel body on a block is the function on the block's shapes -/

/-- The first body: the column of scales re-shaped in place and broadcast across the d columns, the product with the
    block narrowed, the weights narrowed, and the two multiplied into a zero accumulator. -/
theorem body_scaleMatmul (dd : DotDims ⟨2, ![n, d]⟩ ⟨2, ![d, o]⟩ ⟨2, ![n, o]⟩)
    (hlc : dd.lhsContracting = [1]) (hrc : dd.rhsContracting = [0]) (hln : dd.lhsNonContracting = [0])
    (hrn : dd.rhsNonContracting = [1]) (hlb : dd.lhsBatch = []) (hrb : dd.rhsBatch = [])
    (prec : Option ContractPrecision)
    (x0 : FVec Ideal ⟨2, ![n, d]⟩ .f32) (x1 : FVec Ideal ⟨2, ![n, 1]⟩ .f32) (x2 : FVec Ideal ⟨2, ![d, o]⟩ .f32)
    (h1 : (⟨2, ![n, 1]⟩ : Shape).ShapeCasts ⟨2, ![n, 1]⟩) (h2 : (⟨2, ![n, 1]⟩ : Shape).Broadcasts ⟨2, ![n, d]⟩)
    (hb : FTy.bf16.bits < FTy.f32.bits) :
    matmul dd prec (truncf .bf16 (mulf x0 (broadcastTo ⟨2, ![n, d]⟩ (shapeCast ⟨2, ![n, 1]⟩ x1 h1) h2)) hb)
        (truncf .bf16 x2 hb) (constant ⟨2, ![n, o]⟩ .f32 0x00000000#32)
      = scaleMatmul x0 x1 x2 := by
  rw [matmul_zero_eq_matProd dd hlc hrc hln hrn hlb hrb prec]
  unfold scaleMatmul
  refine congrArg₂ matProd (funext fun j => ?_) rfl
  obtain ⟨r, k, rfl⟩ : ∃ (r : Fin n) (k : Fin d), j = ix2 r k := ⟨j 0, j 1, eq_ix2 j⟩
  rw [truncf_apply, mulf_apply, shapeCast_self, Cert.Lib.RowReductions.broadcast_col_apply, scaleRows_apply]

/-- The second body: the block and the two small operands re-shaped in place, the column of scales broadcast across
    the columns and the bias row down the rows, a product, a sum and a maximum with a splat zero. -/
theorem body_normBiasRelu (x0 : FVec Ideal ⟨2, ![n, o]⟩ .f32) (x1 : FVec Ideal ⟨2, ![n, 1]⟩ .f32)
    (x2 : FVec Ideal ⟨2, ![1, o]⟩ .f32)
    (h0 : (⟨2, ![n, o]⟩ : Shape).ShapeCasts ⟨2, ![n, o]⟩) (h1 : (⟨2, ![n, 1]⟩ : Shape).ShapeCasts ⟨2, ![n, 1]⟩)
    (h2 : (⟨2, ![1, o]⟩ : Shape).ShapeCasts ⟨2, ![1, o]⟩)
    (hb1 : (⟨2, ![n, 1]⟩ : Shape).Broadcasts ⟨2, ![n, o]⟩) (hb2 : (⟨2, ![1, o]⟩ : Shape).Broadcasts ⟨2, ![n, o]⟩) :
    maximumf (addf (mulf (shapeCast ⟨2, ![n, o]⟩ x0 h0) (broadcastTo ⟨2, ![n, o]⟩ (shapeCast ⟨2, ![n, 1]⟩ x1 h1) hb1))
        (broadcastTo ⟨2, ![n, o]⟩ (shapeCast ⟨2, ![1, o]⟩ x2 h2) hb2))
        (broadcast ⟨2, ![n, o]⟩ (Scalar.ofBits (F := Ideal) .f32 0x00000000#32))
      = normBiasRelu x0 x1 x2 := by
  funext i
  obtain ⟨r, q, rfl⟩ : ∃ (r : Fin n) (q : Fin o), i = ix2 r q := ⟨i 0, i 1, eq_ix2 i⟩
  rw [maximumf_apply, addf_apply, mulf_apply, shapeCast_self, shapeCast_self, shapeCast_self,
    Cert.Lib.RowReductions.broadcast_col_apply, Cert.Lib.BlockReads.broadcast_row_apply, broadcast_apply,
    normBiasRelu_apply]
  rfl

/-! ## The host's whole-array operations are the function on the array's shapes -/

/-- A vector of n scales broadcast into a column and then across d columns, multiplied into h, and the host's
    dot_general with W: `scaleMatmul` of h and the vector viewed as a column. -/
theorem host_scaleMatmul (dd : DotDims ⟨2, ![n, d]⟩ ⟨2, ![d, o]⟩ ⟨2, ![n, o]⟩)
    (hlc : dd.lhsContracting = [1]) (hrc : dd.rhsContracting = [0]) (hln : dd.lhsNonContracting = [0])
    (hrn : dd.rhsNonContracting = [1]) (hlb : dd.lhsBatch = []) (hrb : dd.rhsBatch = [])
    (prec : Option ContractPrecision)
    (h : FVec Ideal ⟨2, ![n, d]⟩ .f32) (v : FVec Ideal ⟨1, ![n]⟩ .f32) (W : FVec Ideal ⟨2, ![d, o]⟩ .f32)
    (hc : (⟨1, ![n]⟩ : Shape).BroadcastsInDim ⟨2, ![n, 1]⟩ ![0])
    (hcs : (⟨2, ![n, 1]⟩ : Shape).BroadcastsInDim ⟨2, ![n, d]⟩ ![0, 1])
    (hs : (⟨1, ![n]⟩ : Shape).ShapeCasts ⟨2, ![n, 1]⟩) :
    Host.dotGeneral dd prec (mulf h (broadcastInDim ⟨2, ![n, d]⟩ ![0, 1] hcs (broadcastInDim ⟨2, ![n, 1]⟩ ![0] hc v))) W
      = scaleMatmul h (shapeCast ⟨2, ![n, 1]⟩ v hs) W := by
  show FloatOps.dotGeneral dd prec .single _ _ = _
  rw [dotGeneral_eq_matProd dd hlc hrc hln hrn hlb hrb prec]
  unfold scaleMatmul
  refine congrArg₂ matProd (funext fun j => ?_) rfl
  obtain ⟨r, k, rfl⟩ : ∃ (r : Fin n) (k : Fin d), j = ix2 r k := ⟨j 0, j 1, eq_ix2 j⟩
  rw [mulf_apply, Cert.Lib.RowReductions.bcastInDim_cols_apply, Cert.Lib.RowReductions.bcastInDim_col_apply,
    scaleRows_apply, Cert.Lib.RowReductions.shapeCast_col_apply]

/-- The per-row scales broadcast into a column and across the columns, the bias vector into a row and down the rows,
    a product, a sum, and a maximum with a broadcast zero: `normBiasRelu` of a, the scales viewed as a column and the
    bias viewed as a row. -/
theorem host_normBiasRelu (a : FVec Ideal ⟨2, ![n, o]⟩ .f32) (v : FVec Ideal ⟨1, ![n]⟩ .f32)
    (b : FVec Ideal ⟨1, ![o]⟩ .f32)
    (hc : (⟨1, ![n]⟩ : Shape).BroadcastsInDim ⟨2, ![n, 1]⟩ ![0])
    (hcs : (⟨2, ![n, 1]⟩ : Shape).BroadcastsInDim ⟨2, ![n, o]⟩ ![0, 1])
    (hr : (⟨1, ![o]⟩ : Shape).BroadcastsInDim ⟨2, ![1, o]⟩ ![1])
    (hrs : (⟨2, ![1, o]⟩ : Shape).BroadcastsInDim ⟨2, ![n, o]⟩ ![0, 1])
    (hz : (⟨0, ![]⟩ : Shape).BroadcastsInDim ⟨2, ![n, o]⟩ ![])
    (hs : (⟨1, ![n]⟩ : Shape).ShapeCasts ⟨2, ![n, 1]⟩) (hsb : (⟨1, ![o]⟩ : Shape).ShapeCasts ⟨2, ![1, o]⟩) :
    maximumf (addf (mulf a (broadcastInDim ⟨2, ![n, o]⟩ ![0, 1] hcs (broadcastInDim ⟨2, ![n, 1]⟩ ![0] hc v)))
        (broadcastInDim ⟨2, ![n, o]⟩ ![0, 1] hrs (broadcastInDim ⟨2, ![1, o]⟩ ![1] hr b)))
        (broadcastInDim ⟨2, ![n, o]⟩ ![] hz (constant (F := Ideal) ⟨0, ![]⟩ .f32 0x00000000#32))
      = normBiasRelu a (shapeCast ⟨2, ![n, 1]⟩ v hs) (shapeCast ⟨2, ![1, o]⟩ b hsb) := by
  funext i
  obtain ⟨r, q, rfl⟩ : ∃ (r : Fin n) (q : Fin o), i = ix2 r q := ⟨i 0, i 1, eq_ix2 i⟩
  rw [maximumf_apply, addf_apply, mulf_apply, Cert.Lib.RowReductions.bcastInDim_cols_apply,
    Cert.Lib.RowReductions.bcastInDim_col_apply, Cert.Lib.RowVector.bcastInDim_rows_apply,
    Cert.Lib.RowVector.bcastInDim_eq_asRow, Cert.Lib.RowVector.asRow_apply,
    Cert.Lib.RowVector.bcastInDim_scalar_apply, constant_apply, normBiasRelu_apply,
    Cert.Lib.RowReductions.shapeCast_col_apply, Cert.Lib.RowReductions.shapeCast_rowvec_apply]

end Cert.GraphConv

end
-- ==== Proof.Layers.lean ====
/-
  The whole network on the extended reals, as functions of the argument arrays: three graph-convolution layers.

  From the edge lists come a per-node scale for each end of an edge — the number of edges leaving (or entering) the
  node, as a scatter-add of ones, raised to at least one and then to the power −1/2 (`degNorm`) — and the rows to
  gather (`gatherIdx`: a negative source index counted from the end). A layer scales the rows of its input by the
  source-side scales and multiplies by the weights (`scaleMatmul`), sends each edge's source row to the edge and sums the
  edges' rows at their destinations (`aggregate`: a gather followed by a scatter-add into zeros), and then scales by
  the destination-side scales, adds the bias and cuts negative entries off (`normBiasRelu`). The host pieces are kept as
  the operations the reference program applies, with its own dimension records; nothing here opens them.

  `hostLayer128` / `hostLayer64` are one layer exactly as the reference's run spells it (the scales broadcast into a
  column and across the columns, dot_general, the bias broadcast into a row and down the rows, a maximum with a
  broadcast zero); each is the layer function of the same operands (`hostLayer128_eq`, `hostLayer64_eq`).
-/
import proofs.«146982_j80977313399685_1_alg».proof.Proof.Gen.ReferenceIdeal
import proofs.«146982_j80977313399685_1_alg».proof.Proof.Spec

noncomputable section

namespace Cert.GraphConv

open Idealize.ShloMosaic Cert.ReferenceIdeal Cert.ReferenceIdeal.Gen

/-- A vector of 100000 entries has as many as a 100000×1 column … -/
theorem cast_col : S100000.ShapeCasts S100000x1 := by decide
/-- … and one of 64 entries as many as a 1×64 row. -/
theorem cast_row : S64.ShapeCasts S1x64 := by decide

/-- A node's scale on one side of the edges: the count of edges whose index on that side is the node (ones
    scatter-added into zeros), raised to at least one, to the power −1/2. -/
def degNorm (idx : IVec S1600000 32) : FVec Ideal S100000 .f32 :=
  Host.powf (maximumf (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- The rows to gather, one per edge: the source index, a negative one counted from the end. -/
def gatherIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Each edge takes its source's row; the edges' rows are summed at their destinations. -/
def aggregate (hw : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 hw (gatherIdx src))

/-- One layer: scale by the source side, multiply, aggregate over the edges, scale by the destination side, add the
    bias, cut off at zero. -/
def layer {d : Nat} (h : (⟨2, ![100000, d]⟩ : Shape).Idx → EReal) (W : (⟨2, ![d, 64]⟩ : Shape).Idx → EReal)
    (b : FVec Ideal S64 .f32) (src dst : IVec S1600000 32) : FVec Ideal S100000x64 .f32 :=
  normBiasRelu (n := 100000) (o := 64)
    (aggregate (scaleMatmul (n := 100000) (o := 64) h (shapeCast S100000x1 (degNorm src) cast_col) W) src dst)
    (shapeCast S100000x1 (degNorm dst) cast_col) (shapeCast S1x64 b cast_row)

/-- The three layers, the first from 128 features. -/
def network (feat : FVec Ideal S100000x128 .f32) (W1 : FVec Ideal S128x64 .f32) (b1 : FVec Ideal S64 .f32)
    (W2 : FVec Ideal S64x64 .f32) (b2 : FVec Ideal S64 .f32) (W3 : FVec Ideal S64x64 .f32) (b3 : FVec Ideal S64 .f32)
    (src dst : IVec S1600000 32) : FVec Ideal S100000x64 .f32 :=
  layer (d := 64) (layer (d := 64) (layer (d := 128) feat W1 b1 src dst) W2 b2 src dst) W3 b3 src dst

/-! ## A layer as the reference spells it -/

/-- The scaling, bias and cut-off of a layer as the reference spells them, around an aggregated product `agg`. -/
def hostFinish (agg : FVec Ideal S100000x64 .f32) (b : FVec Ideal S64 .f32) (dst : IVec S1600000 32) :
    FVec Ideal S100000x64 .f32 :=
  maximumf (addf (mulf agg
        (broadcastInDim S100000x64 ![0, 1] bcast_S100000x1_S100000x64_0_1 (broadcastInDim S100000x1 ![0] bcast_S100000_S100000x1_0 (degNorm dst))))
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The first layer as the reference spells it. -/
def hostLayer128 (h : FVec Ideal S100000x128 .f32) (W : FVec Ideal S128x64 .f32) (b : FVec Ideal S64 .f32)
    (src dst : IVec S1600000 32) : FVec Ideal S100000x64 .f32 :=
  hostFinish (aggregate (Host.dotGeneral dot_S100000x128_S128x64_S100000x64_1_0_0_1_n_n none
      (mulf h (broadcastInDim S100000x128 ![0, 1] bcast_S100000x1_S100000x128_0_1 (broadcastInDim S100000x1 ![0] bcast_S100000_S100000x1_0 (degNorm src)))) W)
    src dst) b dst

/-- A later layer as the reference spells it. -/
def hostLayer64 (h : FVec Ideal S100000x64 .f32) (W : FVec Ideal S64x64 .f32) (b : FVec Ideal S64 .f32)
    (src dst : IVec S1600000 32) : FVec Ideal S100000x64 .f32 :=
  hostFinish (aggregate (Host.dotGeneral dot_S100000x64_S64x64_S100000x64_1_0_0_1_n_n none
      (mulf h (broadcastInDim S100000x64 ![0, 1] bcast_S100000x1_S100000x64_0_1 (broadcastInDim S100000x1 ![0] bcast_S100000_S100000x1_0 (degNorm src)))) W)
    src dst) b dst

theorem hostFinish_eq (agg : FVec Ideal S100000x64 .f32) (b : FVec Ideal S64 .f32) (dst : IVec S1600000 32) :
    hostFinish agg b dst = normBiasRelu (n := 100000) (o := 64) agg
      (shapeCast S100000x1 (degNorm dst) cast_col) (shapeCast S1x64 b cast_row) :=
  host_normBiasRelu (n := 100000) (o := 64) agg (degNorm dst) b _ _ _ _ _ _ _

theorem hostLayer128_eq (h : FVec Ideal S100000x128 .f32) (W : FVec Ideal S128x64 .f32) (b : FVec Ideal S64 .f32)
    (src dst : IVec S1600000 32) : hostLayer128 h W b src dst = layer (d := 128) h W b src dst := by
  unfold hostLayer128 layer
  rw [hostFinish_eq, host_scaleMatmul (n := 100000) (d := 128) (o := 64) dot_S100000x128_S128x64_S100000x64_1_0_0_1_n_n
    rfl rfl rfl rfl rfl rfl none h (degNorm src) W _ _ cast_col]

theorem hostLayer64_eq (h : FVec Ideal S100000x64 .f32) (W : FVec Ideal S64x64 .f32) (b : FVec Ideal S64 .f32)
    (src dst : IVec S1600000 32) : hostLayer64 h W b src dst = layer (d := 64) h W b src dst := by
  unfold hostLayer64 layer
  rw [hostFinish_eq, host_scaleMatmul (n := 100000) (d := 64) (o := 64) dot_S100000x64_S64x64_S100000x64_1_0_0_1_n_n
    rfl rfl rfl rfl rfl rfl none h (degNorm src) W _ _ cast_col]

end Cert.GraphConv

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.Scales.lean ====
/-
  Before the first region: the two columns of degree scales the idealized kernel program leaves, on the extended reals.

  Five stretches of host operations run before the first region: a scatter-add of ones over each edge list, the
  outlined `clip` (twice), the power −1/2 (twice) and two re-shapings into columns. Read through them the two columns
  are `degNorm` of the source and of the destination indices as launched, viewed as columns. The operations of `clip`
  carry contents between a buffer's own type and the tensor type they state, along an equation that holds by
  computation; over any contents that transport is the identity, and it is removed before the two sides are compared.
-/
import proofs.«146982_j80977313399685_1_alg».proof.Proof.Carry
import proofs.«146982_j80977313399685_1_alg».proof.Proof.Layers
import proofs.«146982_j80977313399685_1_alg».proof.Proof.LibTypedRefs
import Idealize.ShloMosaic.Lib.StableHlo.Run

set_option maxRecDepth 16384

noncomputable section

namespace Cert.KernelIdeal.Hand

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-- The edges' source indices as launched. -/
abbrev src (c : Dev nD) : IVec S1600000 32 := m ((c : Thread nD τ).loc main_arg7)
/-- The edges' destination indices as launched. -/
abbrev dst (c : Dev nD) : IVec S1600000 32 := m ((c : Thread nD τ).loc main_arg8)
/-- The source-side scales as a column. -/
abbrev srcScale (c : Dev nD) : S100000x1.Idx → EReal := shapeCast S100000x1 (degNorm (src m c)) cast_col
/-- The destination-side scales as a column. -/
abbrev dstScale (c : Dev nD) : S100000x1.Idx → EReal := shapeCast S100000x1 (degNorm (dst m c)) cast_col

/-! ## Contents carried along a buffer's type equation are unchanged -/

theorem toBuf_v7 (h1 : (main_v7 : Ref sig .tc).ty = ⟨S100000, .f32⟩) (hd hu)
    (a : (⟨S100000, .f32⟩ : BufTy).Contents (Elt Ideal)) :
    (TRef.of (T := ⟨S100000, .f32⟩) main_v7 h1 hd hu).toBuf (Val := Elt Ideal) a = a := rfl
theorem toBuf_v10 (h1 : (main_v10 : Ref sig .tc).ty = ⟨S100000, .f32⟩) (hd hu)
    (a : (⟨S100000, .f32⟩ : BufTy).Contents (Elt Ideal)) :
    (TRef.of (T := ⟨S100000, .f32⟩) main_v10 h1 hd hu).toBuf (Val := Elt Ideal) a = a := rfl
theorem ofBuf_v3 (h1 : (main_v3 : Ref sig .tc).ty = ⟨S100000, .f32⟩) (hd hu)
    (a : (main_v3 : Ref sig .tc).ty.Contents (Elt Ideal)) :
    (TRef.of (T := ⟨S100000, .f32⟩) main_v3 h1 hd hu).ofBuf (Val := Elt Ideal) a = a := rfl
theorem ofBuf_v6 (h1 : (main_v6 : Ref sig .tc).ty = ⟨S100000, .f32⟩) (hd hu)
    (a : (main_v6 : Ref sig .tc).ty.Contents (Elt Ideal)) :
    (TRef.of (T := ⟨S100000, .f32⟩) main_v6 h1 hd hu).ofBuf (Val := Elt Ideal) a = a := rfl
theorem ofBuf_cst_2 (h1 : (main_cst_2 : Ref sig .tc).ty = ⟨S_, .f32⟩) (hd hu)
    (a : (main_cst_2 : Ref sig .tc).ty.Contents (Elt Ideal)) :
    (TRef.of (T := ⟨S_, .f32⟩) main_cst_2 h1 hd hu).ofBuf (Val := Elt Ideal) a = a := rfl
theorem ofBuf_cst_4 (h1 : (main_cst_4 : Ref sig .tc).ty = ⟨S_, .f32⟩) (hd hu)
    (a : (main_cst_4 : Ref sig .tc).ty.Contents (Elt Ideal)) :
    (TRef.of (T := ⟨S_, .f32⟩) main_cst_4 h1 hd hu).ofBuf (Val := Elt Ideal) a = a := rfl

/-! ## The two columns -/

theorem w5_v13 (c : Dev nD) : W5 m ρ c (Proc.devRef .tc main_v13) = srcScale m c := by
  show after hostOps0_4 (after hostOps0_3 (after hostOps0_2 (after hostOps0_1 (after hostOps0 (W0 m ρ c)))))
    (Proc.devRef .tc main_v13) = _
  simp only [hostOps0, hostOps0_1, hostOps0_2, hostOps0_3, hostOps0_4]
  after_results
  simp only [Cert.Lib.TypedRefs.ofBuf_toBuf, toBuf_v7, ofBuf_v3, ofBuf_cst_2]
  rfl

theorem w5_v14 (c : Dev nD) : W5 m ρ c (Proc.devRef .tc main_v14) = dstScale m c := by
  show after hostOps0_4 (after hostOps0_3 (after hostOps0_2 (after hostOps0_1 (after hostOps0 (W0 m ρ c)))))
    (Proc.devRef .tc main_v14) = _
  simp only [hostOps0, hostOps0_1, hostOps0_2, hostOps0_3, hostOps0_4]
  after_results
  simp only [Cert.Lib.TypedRefs.ofBuf_toBuf, toBuf_v10, ofBuf_v6, ofBuf_cst_4]
  rfl

end Cert.KernelIdeal.Hand

end
-- ==== Proof.Stretches.lean ====
/-
  The three stretches of host operations between the regions of the idealized kernel program, read over any contents
  `V` they start from: each computes the rows to gather from the source indices, gathers the product's rows, scatter-adds
  them into zeros at the destination indices (`aggregate` of the product and the two edge lists as `V` holds them), and
  re-shapes the layer's bias vector into a row.
-/
import proofs.«146982_j80977313399685_1_alg».proof.Proof.Gen.KernelIdeal.Launch
import proofs.«146982_j80977313399685_1_alg».proof.Proof.Layers
import Idealize.ShloMosaic.Lib.StableHlo.Run

set_option maxRecDepth 16384

noncomputable section

namespace Cert.KernelIdeal.Hand

open Cert.KernelIdeal Cert.KernelIdeal.Gen Cert.GraphConv
open Idealize.ShloMosaic Idealize.ShloMosaic.TcCoe Idealize.SL.Sem Idealize.ShloMosaic.StableHlo

variable (V : Valuation τ sig (Elt Ideal))

/-- After the first layer's stretch the aggregated buffer holds the edges' sums of the product's rows … -/
theorem hostOps1_main_v25 : after hostOps1 V (Proc.devRef .tc main_v25)
    = aggregate (V (Proc.devRef .tc main_v15)) (V (Proc.devRef .tc main_arg7)) (V (Proc.devRef .tc main_arg8)) := by
  simp only [hostOps1]
  after_results_simp <;> rfl

/-- … and the bias row's buffer the first bias, re-shaped. -/
theorem hostOps1_main_v26 : after hostOps1 V (Proc.devRef .tc main_v26)
    = shapeCast S1x64 (V (Proc.devRef .tc main_arg2)) cast_row := by
  simp only [hostOps1]
  after_results_simp <;> rfl

/-- After the second layer's stretch the aggregated buffer holds the edges' sums of the product's rows … -/
theorem hostOps3_main_v38 : after hostOps3 V (Proc.devRef .tc main_v38)
    = aggregate (V (Proc.devRef .tc main_v28)) (V (Proc.devRef .tc main_arg7)) (V (Proc.devRef .tc main_arg8)) := by
  simp only [hostOps3]
  after_results_simp <;> rfl

/-- … and the bias row's buffer the second bias, re-shaped. -/
theorem hostOps3_main_v39 : after hostOps3 V (Proc.devRef .tc main_v39)
    = shapeCast S1x64 (V (Proc.devRef .tc main_arg4)) cast_row := by
  simp only [hostOps3]
  after_results_simp <;> rfl

/-- After the third layer's stretch the aggregated buffer holds the edges' sums of the product's rows … -/
theorem hostOps5_main_v51 : after hostOps5 V (Proc.devRef .tc main_v51)
    = aggregate (V (Proc.devRef .tc main_v41)) (V (Proc.devRef .tc main_arg7)) (V (Proc.devRef .tc main_arg8)) := by
  simp only [hostOps5]
  after_results_simp <;> rfl

/-- … and the bias row's buffer the third bias, re-shaped. -/
theorem hostOps5_main_v52 : after hostOps5 V (Proc.devRef .tc main_v52)
    = shapeCast S1x64 (V (Proc.devRef .tc main_arg6)) cast_row := by
  simp only [hostOps5]
  after_results_simp <;> rfl

end Cert.KernelIdeal.Hand

end
-- ==== Proof.Blocks.lean ====
/-
  A block of rows of each of the two functions of one layer, in the form a pipelined region needs it: the function of
  a block of rows of its row-indexed operands (and of a copy of its shared operand), at row y and column q of the block, is the
  function of the whole arrays at the row r and column q' of the array that they stand for, once row y of each block
  operand is row r of the array and the shared operand's copy agrees with it on the column read.
-/
import proofs.«146982_j80977313399685_1_alg».proof.Proof.Spec

noncomputable section

namespace Cert.GraphConv

open Idealize.ShloMosaic Idealize.ShloMosaic.ValueIdx Cert.Lib.MatProd

variable {n n' d o : Nat}

/-- Row y of `scaleMatmul h' s' W'` at column q is row r of `scaleMatmul h s W` at column q', when row y of h' and s'
    is row r of h and s and column q of W' is column q' of W. -/
theorem scaleMatmul_block (h : (⟨2, ![n, d]⟩ : Shape).Idx → EReal) (s : (⟨2, ![n, 1]⟩ : Shape).Idx → EReal)
    (W : (⟨2, ![d, o]⟩ : Shape).Idx → EReal) (h' : (⟨2, ![n', d]⟩ : Shape).Idx → EReal)
    (s' : (⟨2, ![n', 1]⟩ : Shape).Idx → EReal) (W' : (⟨2, ![d, o]⟩ : Shape).Idx → EReal)
    (y : Fin n') (q : Fin o) (r : Fin n) (q' : Fin o)
    (hh : ∀ k : Fin d, h' (ix2 y k) = h (ix2 r k)) (hs : s' (ix2 y 0) = s (ix2 r 0))
    (hW : ∀ k : Fin d, W' (ix2 k q) = W (ix2 k q')) :
    scaleMatmul h' s' W' (ix2 y q) = scaleMatmul h s W (ix2 r q') :=
  matProd_block (scaleRows h s) (scaleRows h' s') W W' y q r q'
    (fun k => by rw [scaleRows_apply, scaleRows_apply, hh k, hs]) hW

/-- The same for `normBiasRelu`: entry (y, q) of the function of a block is entry (r, q') of the function of the
    arrays, when the block's entry, its row's scale and its column's bias are the arrays'. -/
theorem normBiasRelu_block (a : (⟨2, ![n, o]⟩ : Shape).Idx → EReal) (s : (⟨2, ![n, 1]⟩ : Shape).Idx → EReal)
    (b : (⟨2, ![1, o]⟩ : Shape).Idx → EReal) (a' : (⟨2, ![n', o]⟩ : Shape).Idx → EReal)
    (s' : (⟨2, ![n', 1]⟩ : Shape).Idx → EReal) (b' : (⟨2, ![1, o]⟩ : Shape).Idx → EReal)
    (y : Fin n') (q : Fin o) (r : Fin n) (q' : Fin o)
    (ha : a' (ix2 y q) = a (ix2 r q')) (hs : s' (ix2 y 0) = s (ix2 r 0)) (hb : b' (ix2 0 q) = b (ix2 0 q')) :
    normBiasRelu a' s' b' (ix2 y q) = normBiasRelu a s b (ix2 r q') := by
  rw [normBiasRelu_apply, normBiasRelu_apply, ha, hs, hb]

end Cert.GraphConv

end
-- ==== Proof.Region0.lean ====
/-
  Region 0 of the idealized kernel program: a grid of 20 points, each multiplying one block of 5000 rows.

  The region's first operand is a 100000×128 array fetched 5000 rows at a time, the second the 100000×1 column of
  per-row scales fetched with it, the third a 128×64 array fetched whole, and its result a 100000×64 array written back
  5000 rows at a time. At point t the body leaves in the result's buffer `scaleMatmul` of the three blocks; row y of
  the blocks is row 5000·t + y of the arrays, so that is rows 5000·t … 5000·t + 4999 of `scaleMatmul` of the arrays,
  and the twenty blocks cover the result. So, for whatever contents `V` the region is entered with, its result array
  ends at `scaleMatmul` of the three operand arrays.
-/
import proofs.«146982_j80977313399685_1_alg».proof.Proof.Gen.KernelIdeal.Frame
import proofs.«146982_j80977313399685_1_alg».proof.Proof.Blocks
import Idealize.ShloMosaic.Lib.Pipeline.Value

set_option maxRecDepth 16384

noncomputable section

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the weights at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the region's result array ends at: `scaleMatmul` of its operand arrays as the region finds them. -/
abbrev G (c : Dev nD) : S100000x64.Idx → EReal :=
  scaleMatmul (n := 100000) (d := 128) (o := 64) (V c main_arg0) (V c main_v13) (V c main_arg1)

/-- The body's stored value is `scaleMatmul` of the three loaded blocks. -/
theorem pay (x0 : Vec Ideal S5000x128 .f32) (x1 : Vec Ideal S5000x1 .f32) (x2 : Vec Ideal S128x64 .f32) :
    k0_pay1 x0 x1 x2 = scaleMatmul (n := 5000) (d := 128) (o := 64) x0 x1 x2 := by
  unfold k0_pay1
  exact body_scaleMatmul dot_S5000x128_S128x64_S5000x64_1_0_0_1_n_n rfl rfl rfl rfl rfl rfl none x0 x1 x2 _ _ _

/-- Row x of the first operand's block at point t is row 5000·t + x of the array. -/
theorem read_rows (c : Dev nD) (t : Fin cfg0.N) (x : S5000x128.Idx) (y : S100000x128.Idx)
    (h0 : (y 0).val = t.val * 5000 + (x 0).val) (h1 : (y 1).val = (x 1).val) :
    (iblk0 V c 0 t : Vec Ideal S5000x128 .f32) x = (V c main_arg0 : S100000x128.Idx → EReal) y := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * (x 0).val = (y 0).val; rw [e0, h0]; omega
  | ⟨1, _⟩ => show win0_0.index t (1 : Fin 2) * 128 + 1 * (x 1).val = (y 1).val; rw [e1, h1]; omega

/-- Row x of the scales' block at point t is row 5000·t + x of the column. -/
theorem read_scales (c : Dev nD) (t : Fin cfg0.N) (x : S5000x1.Idx) (y : S100000x1.Idx)
    (h0 : (y 0).val = t.val * 5000 + (x 0).val) (h1 : (y 1).val = (x 1).val) :
    (iblk0 V c 1 t : Vec Ideal S5000x1 .f32) x = (V c main_v13 : S100000x1.Idx → EReal) y := by
  obtain ⟨-, -, e0, e1, -⟩ := idx_facts t
  unfold iblk0
  rw [View.read_apply]
  show V c main_v13 _ = V c main_v13 _
  refine congrArg _ (funext fun a => Fin.ext ?_)
  match a with
  | ⟨0, _⟩ => show win0_1.index t (0 : Fin 2) * 5000 + 1 * (x 0).val = (y 0).val; rw [e0, h0]; omega
  | ⟨1, _⟩ => show win0_1.index t (1 : Fin 2) * 1 + 1 * (x 1).val = (y 1).val; rw [e1, h1]; omega

/-- The weights' one block is the whole array. -/
theorem read_weights (c : Dev nD) (t : Fin cfg0.N) (x : S128x64.Idx) :
    (iblk0 V c 2 t : Vec Ideal S128x64 .f32) x = (V c main_arg1 : S128x64.Idx → EReal) x := by
  obtain ⟨-, -, -, -, e0, e1, -⟩ := idx_facts t
  unfold iblk0
  rw [View.read_apply]
  show V c main_arg1 _ = V c main_arg1 _
  refine congrArg _ (funext fun a => Fin.ext ?_)
  match a with
  | ⟨0, _⟩ => show win0_2.index t (0 : Fin 2) * 128 + 1 * (x 0).val = (x 0).val; rw [e0]; omega
  | ⟨1, _⟩ => show win0_2.index t (1 : Fin 2) * 64 + 1 * (x 1).val = (x 1).val; rw [e1]; omega

/-- What point t writes back is block t of `G`. -/
theorem flushed (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x64) hz]
  rw [pay]
  obtain ⟨-, -, -, -, -, -, e0, e1⟩ := idx_facts t
  funext j
  show scaleMatmul (n := 5000) (d := 128) (o := 64) (iblk0 V c 0 t) (iblk0 V c 1 t) (iblk0 V c 2 t) j
    = G V c (((cfg0.win 3).blk t).view.emb j)
  have hi0 : ((((cfg0.win 3).blk t).view.emb j) 0).val = t.val * 5000 + (j 0).val := by
    show win0_3.index t (0 : Fin 2) * 5000 + 1 * (j 0).val = _; rw [e0]; omega
  have hi1 : ((((cfg0.win 3).blk t).view.emb j) 1).val = (j 1).val := by
    show win0_3.index t (1 : Fin 2) * 64 + 1 * (j 1).val = _; rw [e1]; omega
  refine (congrArg _ (eq_ix2 (n0 := 5000) (n1 := 64) j)).trans
    (Eq.trans ?_ (congrArg (G V c) (eq_ix2 (n0 := 100000) (n1 := 64) (((cfg0.win 3).blk t).view.emb j))).symm)
  exact scaleMatmul_block (n := 100000) (n' := 5000) (d := 128) (o := 64) (V c main_arg0) (V c main_v13) (V c main_arg1)
    (iblk0 V c 0 t) (iblk0 V c 1 t) (iblk0 V c 2 t) (j 0) (j 1)
    ((((cfg0.win 3).blk t).view.emb j) 0) ((((cfg0.win 3).blk t).view.emb j) 1)
    (fun k => read_rows V c t (ix2 (j 0) k) (ix2 ((((cfg0.win 3).blk t).view.emb j) 0) k) hi0 rfl)
    (read_scales V c t (ix2 (j 0) 0) (ix2 ((((cfg0.win 3).blk t).view.emb j) 0) 0) hi0 rfl)
    (fun k => (read_weights V c t (ix2 k (j 1))).trans
      (congrArg (fun z : Fin 64 => (V c main_arg1 : S128x64.Idx → EReal) (ix2 k z)) (Fin.ext hi1.symm)))

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v15).slice (win0_3.rect t)).set ↔ _
  rw [View.set_slice_whole, Rect.mem_set_unit]
  exact Iff.rfl

/-- Row r of the result is written back by point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

/-- The region's result array after its last point. -/
theorem final (c : Dev nD) : (dat0 V c).arrAt 3 cfg0.N = G V c :=
  (dat0 V c).arrAt_eq_of_cover 3 (G V c) (fun t _ => flushed V c t) cover

end Cert.KernelIdeal.Region0

end
-- ==== Proof.Region1.lean ====
/-
  Region 1 of the idealized kernel program: a grid of 20 points, each finishing one block of 5000 rows.

  The region's first operand is a 100000×64 array fetched 5000 rows at a time, the second the 100000×1 column of
  per-row scales fetched with it, the third a 1×64 bias row fetched whole, and its result a 100000×64 array written
  back 5000 rows at a time. At point t the body leaves in the result's buffer `normBiasRelu` of the three blocks; row y
  of the blocks is row 5000·t + y of the arrays, so that is rows 5000·t … 5000·t + 4999 of `normBiasRelu` of the
  arrays, and the twenty blocks cover the result. So, for whatever contents `V` the region is entered with, its result
  array ends at `normBiasRelu` of the three operand arrays.
-/
import proofs.«146982_j80977313399685_1_alg».proof.Proof.Gen.KernelIdeal.Frame
import proofs.«146982_j80977313399685_1_alg».proof.Proof.Blocks
import Idealize.ShloMosaic.Lib.Pipeline.Value

set_option maxRecDepth 16384

noncomputable section

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the bias row at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the region's result array ends at: `normBiasRelu` of its operand arrays as the region finds them. -/
abbrev G (c : Dev nD) : S100000x64.Idx → EReal :=
  normBiasRelu (n := 100000) (o := 64) (V c main_v25) (V c main_v14) (V c main_v26)

/-- The body's stored value is `normBiasRelu` of the three loaded blocks. -/
theorem pay (x0 : Vec Ideal S5000x64 .f32) (x1 : Vec Ideal S5000x1 .f32) (x2 : Vec Ideal S1x64 .f32) :
    k1_pay1 x0 x1 x2 = normBiasRelu (n := 5000) (o := 64) x0 x1 x2 := by
  unfold k1_pay1
  exact body_normBiasRelu x0 x1 x2 _ _ _ _ _

/-- Row x of the first operand's block at point t is row 5000·t + x of the array. -/
theorem read_rows (c : Dev nD) (t : Fin cfg1.N) (x : S5000x64.Idx) (y : S100000x64.Idx)
    (h0 : (y 0).val = t.val * 5000 + (x 0).val) (h1 : (y 1).val = (x 1).val) :
    (iblk1 V c 0 t : Vec Ideal S5000x64 .f32) x = (V c main_v25 : S100000x64.Idx → EReal) y := by
  obtain ⟨e0, e1, -⟩ := idx_facts t
  unfold iblk1
  rw [View.read_apply]
  show V c main_v25 _ = V c main_v25 _
  refine congrArg _ (funext fun a => Fin.ext ?_)
  match a with
  | ⟨0, _⟩ => show win1_0.index t (0 : Fin 2) * 5000 + 1 * (x 0).val = (y 0).val; rw [e0, h0]; omega
  | ⟨1, _⟩ => show win1_0.index t (1 : Fin 2) * 64 + 1 * (x 1).val = (y 1).val; rw [e1, h1]; omega

/-- Row x of the scales' block at point t is row 5000·t + x of the column. -/
theorem read_scales (c : Dev nD) (t : Fin cfg1.N) (x : S5000x1.Idx) (y : S100000x1.Idx)
    (h0 : (y 0).val = t.val * 5000 + (x 0).val) (h1 : (y 1).val = (x 1).val) :
    (iblk1 V c 1 t : Vec Ideal S5000x1 .f32) x = (V c main_v14 : S100000x1.Idx → EReal) y := by
  obtain ⟨-, -, e0, e1, -⟩ := idx_facts t
  unfold iblk1
  rw [View.read_apply]
  show V c main_v14 _ = V c main_v14 _
  refine congrArg _ (funext fun a => Fin.ext ?_)
  match a with
  | ⟨0, _⟩ => show win1_1.index t (0 : Fin 2) * 5000 + 1 * (x 0).val = (y 0).val; rw [e0, h0]; omega
  | ⟨1, _⟩ => show win1_1.index t (1 : Fin 2) * 1 + 1 * (x 1).val = (y 1).val; rw [e1, h1]; omega

/-- The bias row's one block is the whole row. -/
theorem read_bias (c : Dev nD) (t : Fin cfg1.N) (x : S1x64.Idx) :
    (iblk1 V c 2 t : Vec Ideal S1x64 .f32) x = (V c main_v26 : S1x64.Idx → EReal) x := by
  obtain ⟨-, -, -, -, e0, e1, -⟩ := idx_facts t
  unfold iblk1
  rw [View.read_apply]
  show V c main_v26 _ = V c main_v26 _
  refine congrArg _ (funext fun a => Fin.ext ?_)
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- What point t writes back is block t of `G`. -/
theorem flushed (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  rw [pay]
  obtain ⟨-, -, -, -, -, -, e0, e1⟩ := idx_facts t
  funext j
  show normBiasRelu (n := 5000) (o := 64) (iblk1 V c 0 t) (iblk1 V c 1 t) (iblk1 V c 2 t) j
    = G V c (((cfg1.win 3).blk t).view.emb j)
  have hi0 : ((((cfg1.win 3).blk t).view.emb j) 0).val = t.val * 5000 + (j 0).val := by
    show win1_3.index t (0 : Fin 2) * 5000 + 1 * (j 0).val = _; rw [e0]; omega
  have hi1 : ((((cfg1.win 3).blk t).view.emb j) 1).val = (j 1).val := by
    show win1_3.index t (1 : Fin 2) * 64 + 1 * (j 1).val = _; rw [e1]; omega
  refine (congrArg _ (eq_ix2 (n0 := 5000) (n1 := 64) j)).trans
    (Eq.trans ?_ (congrArg (G V c) (eq_ix2 (n0 := 100000) (n1 := 64) (((cfg1.win 3).blk t).view.emb j))).symm)
  exact normBiasRelu_block (n := 100000) (n' := 5000) (o := 64) (V c main_v25) (V c main_v14) (V c main_v26)
    (iblk1 V c 0 t) (iblk1 V c 1 t) (iblk1 V c 2 t) (j 0) (j 1)
    ((((cfg1.win 3).blk t).view.emb j) 0) ((((cfg1.win 3).blk t).view.emb j) 1)
    (read_rows V c t (ix2 (j 0) (j 1)) (ix2 ((((cfg1.win 3).blk t).view.emb j) 0) ((((cfg1.win 3).blk t).view.emb j) 1)) hi0 hi1)
    (read_scales V c t (ix2 (j 0) 0) (ix2 ((((cfg1.win 3).blk t).view.emb j) 0) 0) hi0 rfl)
    ((read_bias V c t (ix2 0 (j 1))).trans
      (congrArg (fun z : Fin 64 => (V c main_v26 : S1x64.Idx → EReal) (ix2 0 z)) (Fin.ext hi1.symm)))

/-- An index of the result array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v27).slice (win1_3.rect t)).set ↔ _
  rw [View.set_slice_whole, Rect.mem_set_unit]
  exact Iff.rfl

/-- Row r of the result is written back by point r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 64 ≤ (i 1).val ∧ (i 1).val < win1_3.index t (1 : Fin 2) * 64 + 64
    rw [e1]; omega

/-- The region's result array after its last point. -/
theorem final (c : Dev nD) : (dat1 V c).arrAt 3 cfg1.N = G V c :=
  (dat1 V c).arrAt_eq_of_cover 3 (G V c) (fun t _ => flushed V c t) cover

end Cert.KernelIdeal.Region1

end
-- ==== Proof.Region2.lean ====
/-
  Region 2 of the idealized kernel program: a grid of 20 points, each multiplying one block of 5000 rows.

  The region's first operand is a 100000×64 array fetched 5000 rows at a time, the second the 100000×1 column of
  per-row scales fetched with it, the third a 64×64 array fetched whole, and its result a 100000×64 array written back
  5000 rows at a time. At point t the body leaves in the result's buffer `scaleMatmul` of the three blocks; row y of
  the blocks is row 5000·t + y of the arrays, so that is rows 5000·t … 5000·t + 4999 of `scaleMatmul` of the arrays,
  and the twenty blocks cover the result. So, for whatever contents `V` the region is entered with, its result array
  ends at `scaleMatmul` of the three operand arrays.
-/
import proofs.«146982_j80977313399685_1_alg».proof.Proof.Gen.KernelIdeal.Frame
import proofs.«146982_j80977313399685_1_alg».proof.Proof.Blocks
import Idealize.ShloMosaic.Lib.Pipeline.Value

set_option maxRecDepth 16384

noncomputable section

namespace Cert.KernelIdeal.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the weights at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the region's result array ends at: `scaleMatmul` of its operand arrays as the region finds them. -/
abbrev G (c : Dev nD) : S100000x64.Idx → EReal :=
  scaleMatmul (n := 100000) (d := 64) (o := 64) (V c main_v27) (V c main_v13) (V c main_arg3)

/-- The body's stored value is `scaleMatmul` of the three loaded blocks (the first re-shaped in place, which changes
    nothing). -/
theorem pay (x0 : Vec Ideal S5000x64 .f32) (x1 : Vec Ideal S5000x1 .f32) (x2 : Vec Ideal S64x64 .f32) :
    k2_pay1 x0 x1 x2 = scaleMatmul (n := 5000) (d := 64) (o := 64) x0 x1 x2 := by
  unfold k2_pay1
  rw [shapeCast_self x0 shapeCasts_S5000x64_S5000x64]
  exact body_scaleMatmul dot_S5000x64_S64x64_S5000x64_1_0_0_1_n_n rfl rfl rfl rfl rfl rfl none x0 x1 x2 _ _ _

/-- Row x of the first operand's block at point t is row 5000·t + x of the array. -/
theorem read_rows (c : Dev nD) (t : Fin cfg2.N) (x : S5000x64.Idx) (y : S100000x64.Idx)
    (h0 : (y 0).val = t.val * 5000 + (x 0).val) (h1 : (y 1).val = (x 1).val) :
    (iblk2 V c 0 t : Vec Ideal S5000x64 .f32) x = (V c main_v27 : S100000x64.Idx → EReal) y := by
  obtain ⟨e0, e1, -⟩ := idx_facts t
  unfold iblk2
  rw [View.read_apply]
  show V c main_v27 _ = V c main_v27 _
  refine congrArg _ (funext fun a => Fin.ext ?_)
  match a with
  | ⟨0, _⟩ => show win2_0.index t (0 : Fin 2) * 5000 + 1 * (x 0).val = (y 0).val; rw [e0, h0]; omega
  | ⟨1, _⟩ => show win2_0.index t (1 : Fin 2) * 64 + 1 * (x 1).val = (y 1).val; rw [e1, h1]; omega

/-- Row x of the scales' block at point t is row 5000·t + x of the column. -/
theorem read_scales (c : Dev nD) (t : Fin cfg2.N) (x : S5000x1.Idx) (y : S100000x1.Idx)
    (h0 : (y 0).val = t.val * 5000 + (x 0).val) (h1 : (y 1).val = (x 1).val) :
    (iblk2 V c 1 t : Vec Ideal S5000x1 .f32) x = (V c main_v13 : S100000x1.Idx → EReal) y := by
  obtain ⟨-, -, e0, e1, -⟩ := idx_facts t
  unfold iblk2
  rw [View.read_apply]
  show V c main_v13 _ = V c main_v13 _
  refine congrArg _ (funext fun a => Fin.ext ?_)
  match a with
  | ⟨0, _⟩ => show win2_1.index t (0 : Fin 2) * 5000 + 1 * (x 0).val = (y 0).val; rw [e0, h0]; omega
  | ⟨1, _⟩ => show win2_1.index t (1 : Fin 2) * 1 + 1 * (x 1).val = (y 1).val; rw [e1, h1]; omega

/-- The weights' one block is the whole array. -/
theorem read_weights (c : Dev nD) (t : Fin cfg2.N) (x : S64x64.Idx) :
    (iblk2 V c 2 t : Vec Ideal S64x64 .f32) x = (V c main_arg3 : S64x64.Idx → EReal) x := by
  obtain ⟨-, -, -, -, e0, e1, -⟩ := idx_facts t
  unfold iblk2
  rw [View.read_apply]
  show V c main_arg3 _ = V c main_arg3 _
  refine congrArg _ (funext fun a => Fin.ext ?_)
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

/-- What point t writes back is block t of `G`. -/
theorem flushed (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S64x64) hz]
  rw [pay]
  obtain ⟨-, -, -, -, -, -, e0, e1⟩ := idx_facts t
  funext j
  show scaleMatmul (n := 5000) (d := 64) (o := 64) (iblk2 V c 0 t) (iblk2 V c 1 t) (iblk2 V c 2 t) j
    = G V c (((cfg2.win 3).blk t).view.emb j)
  have hi0 : ((((cfg2.win 3).blk t).view.emb j) 0).val = t.val * 5000 + (j 0).val := by
    show win2_3.index t (0 : Fin 2) * 5000 + 1 * (j 0).val = _; rw [e0]; omega
  have hi1 : ((((cfg2.win 3).blk t).view.emb j) 1).val = (j 1).val := by
    show win2_3.index t (1 : Fin 2) * 64 + 1 * (j 1).val = _; rw [e1]; omega
  refine (congrArg _ (eq_ix2 (n0 := 5000) (n1 := 64) j)).trans
    (Eq.trans ?_ (congrArg (G V c) (eq_ix2 (n0 := 100000) (n1 := 64) (((cfg2.win 3).blk t).view.emb j))).symm)
  exact scaleMatmul_block (n := 100000) (n' := 5000) (d := 64) (o := 64) (V c main_v27) (V c main_v13) (V c main_arg3)
    (iblk2 V c 0 t) (iblk2 V c 1 t) (iblk2 V c 2 t) (j 0) (j 1)
    ((((cfg2.win 3).blk t).view.emb j) 0) ((((cfg2.win 3).blk t).view.emb j) 1)
    (fun k => read_rows V c t (ix2 (j 0) k) (ix2 ((((cfg2.win 3).blk t).view.emb j) 0) k) hi0 rfl)
    (read_scales V c t (ix2 (j 0) 0) (ix2 ((((cfg2.win 3).blk t).view.emb j) 0) 0) hi0 rfl)
    (fun k => (read_weights V c t (ix2 k (j 1))).trans
      (congrArg (fun z : Fin 64 => (V c main_arg3 : S64x64.Idx → EReal) (ix2 k z)) (Fin.ext hi1.symm)))

/-- An index of the result array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v28).slice (win2_3.rect t)).set ↔ _
  rw [View.set_slice_whole, Rect.mem_set_unit]
  exact Iff.rfl

/-- Row r of the result is written back by point r / 5000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, e0, e1⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 64 ≤ (i 1).val ∧ (i 1).val < win2_3.index t (1 : Fin 2) * 64 + 64
    rw [e1]; omega

/-- The region's result array after its last point. -/
theorem final (c : Dev nD) : (dat2 V c).arrAt 3 cfg2.N = G V c :=
  (dat2 V c).arrAt_eq_of_cover 3 (G V c) (fun t _ => flushed V c t) cover

end Cert.KernelIdeal.Region2

end
-- ==== Proof.Region3.lean ====
/-
  Region 3 of the idealized kernel program: a grid of 20 points, each finishing one block of 5000 rows.

  The region's first operand is a 100000×64 array fetched 5000 rows at a time, the second the 100000×1 column of
  per-row scales fetched with it, the third a 1×64 bias row fetched whole, and its result a 100000×64 array written
  back 5000 rows at a time. At point t the body leaves in the result's buffer `normBiasRelu` of the three blocks; row y
  of the blocks is row 5000·t + y of the arrays, so that is rows 5000·t … 5000·t + 4999 of `normBiasRelu` of the
  arrays, and the twenty blocks cover the result. So, for whatever contents `V` the region is entered with, its result
  array ends at `normBiasRelu` of the three operand arrays.
-/
import proofs.«146982_j80977313399685_1_alg».proof.Proof.Gen.KernelIdeal.Frame
import proofs.«146982_j80977313399685_1_alg».proof.Proof.Blocks
import Idealize.ShloMosaic.Lib.Pipeline.Value

set_option maxRecDepth 16384

noncomputable section

namespace Cert.KernelIdeal.Region3

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the bias row at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What the region's result array ends at: `normBiasRelu` of its operand arrays as the region finds them. -/
abbrev G (c : Dev nD) : S100000x64.Idx → EReal :=
  normBiasRelu (n := 100000) (o := 64) (V c main_v38) (V c main_v14) (V c main_v39)

/-- The body's stored value is `normBiasRelu` of the three loaded blocks. -/
theorem pay (x0 : Vec Ideal S5000x64 .f32) (x1 : Vec Ideal S5000x1 .f32) (x2 : Vec Ideal S1x64 .f32) :
    k3_pay1 x0 x1 x2 = normBiasRelu (n := 5000) (o := 64) x0 x1 x2 := by
  unfold k3_pay1
  exact body_normBiasRelu x0 x1 x2 _ _ _ _ _

/-- Row x of the first operand's block at point t is row 5000·t + x of the array. -/
theorem read_rows (c : Dev nD) (t : Fin cfg3.N) (x : S5000x64.Idx) (y : S100000x64.Idx)
    (h0 : (y 0).val = t.val * 5000 + (x 0).val) (h1 : (y 1).val = (x 1).val) :
    (iblk3 V c 0 t : Vec Ideal S5000x64 .f32) x = (V c main_v38 : S100000x64.Idx → EReal) y := by
  obtain ⟨e0, e1, -⟩ := idx_facts t
  unfold iblk3
  rw [View.read_apply]
  show V c main_v38 _ = V c main_v38 _
  refine congrArg _ (funext fun a => Fin.ext ?_)
  match a with
  | ⟨0, _⟩ => show win3_0.index t (0 : Fin 2) * 5000 + 1 * (x 0).val = (y 0).val; rw [e0, h0]; omega
  | ⟨1, _⟩ => show win3_0.index t (1 : Fin 2) * 64 + 1 * (x 1).val = (y 1).val; rw [e1, h1]; omega

/-- Row x of the scales' block at point t is row 5000·t + x of the column. -/
theorem read_scales (c : Dev nD) (t : Fin cfg3.N) (x : S5000x1.Idx) (y : S100000x1.Idx)
    (h0 : (y 0).val = t.val * 5000 + (x 0).val) (h1 : (y 1).val = (x 1).val) :
    (iblk3 V c 1 t : Vec Ideal S5000x1 .f32) x = (V c main_v14 : S100000x1.Idx → EReal) y := by
  obtain ⟨-, -, e0, e1, -⟩ := idx_facts t
  unfold iblk3
  rw [View.read_apply]
  show V c main_v14 _ = V c main_v14 _
  refine congrArg _ (funext fun a => Fin.ext ?_)
  match a with
  | ⟨0, _⟩ => show win3_1.index t (0 : Fin 2) * 5000 + 1 * (x 0).val = (y 0).val; rw [e0, h0]; omega
  | ⟨1, _⟩ => show win3_1.index t (1 : Fin 2) * 1 + 1 * (x 1).val = (y 1).val; rw [e1, h1]; omega

/-- The bias row's one block is the whole row. -/
theorem read_bias (c : Dev nD) (t : Fin cfg3.N) (x : S1x64.Idx) :
    (iblk3 V c 2 t : Vec Ideal S1x64 .f32) x = (V c main_v39 : S1x64.Idx → EReal) x := by
  obtain ⟨-, -, -, -, e0, e1, -⟩ := idx_facts t
  unfold iblk3
  rw [View.read_apply]
  show V c main_v39 _ = V c main_v39 _
  refine congrArg _ (funext fun a => Fin.ext ?_)
  match a with
  | ⟨0, _⟩ => show win3_2.index t (0 : Fin 2) * 1 + 1 * (x 0).val = (x 0).val; rw [e0]; omega
  | ⟨1, _⟩ => show win3_2.index t (1 : Fin 2) * 64 + 1 * (x 1).val = (x 1).val; rw [e1]; omega

/-- What point t writes back is block t of `G`. -/
theorem flushed (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  rw [pay]
  obtain ⟨-, -, -, -, -, -, e0, e1⟩ := idx_facts t
  funext j
  show normBiasRelu (n := 5000) (o := 64) (iblk3 V c 0 t) (iblk3 V c 1 t) (iblk3 V c 2 t) j
    = G V c (((cfg3.win 3).blk t).view.emb j)
  have hi0 : ((((cfg3.win 3).blk t).view.emb j) 0).val = t.val * 5000 + (j 0).val := by
    show win3_3.index t (0 : Fin 2) * 5000 + 1 * (j 0).val = _; rw [e0]; omega
  have hi1 : ((((cfg3.win 3).blk t).view.emb j) 1).val = (j 1).val := by
    show win3_3.index t (1 : Fin 2) * 64 + 1 * (j 1).val = _; rw [e1]; omega
  refine (congrArg _ (eq_ix2 (n0 := 5000) (n1 := 64) j)).trans
    (Eq.trans ?_ (congrArg (G V c) (eq_ix2 (n0 := 100000) (n1 := 64) (((cfg3.win 3).blk t).view.emb j))).symm)
  exact normBiasRelu_block (n := 100000) (n' := 5000) (o := 64) (V c main_v38) (V c main_v14) (V c main_v39)
    (iblk3 V c 0 t) (iblk3 V c 1 t) (iblk3 V c 2 t) (j 0) (j 1)
    ((((cfg3.win 3).blk t).view.emb j) 0) ((((cfg3.win 3).blk t).view.emb j) 1)
    (read_rows V c t (ix2 (j 0) (j 1)) (ix2 ((((cfg3.win 3).blk t).view.emb j) 0) ((((cfg3.win 3).blk t).view.emb j) 1)) hi0 hi1)
    (read_scales V c t (ix2 (j 0) 0) (ix2 ((((cfg3.win 3).blk t).view.emb j) 0) 0) hi0 rfl)
    ((read_bias V c t (ix2 0 (j 1))).trans
      (congrArg (fun z : Fin 64 => (V c main_v39 : S1x64.Idx → EReal) (ix2 0 z)) (Fin.ext hi1.symm)))

/-- An index of the result array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v40).slice (win3_3.rect t)).set ↔ _
  rw [View.set_slice_whole, Rect.mem_set_unit]
  exact Iff.rfl

/-- Row r of the result is written back by point r / 5000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, e0, e1⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 64 ≤ (i 1).val ∧ (i 1).val < win3_3.index t (1 : Fin 2) * 64 + 64
    rw [e1]; omega

/-- The region's result array after its last point. -/
theorem final (c : Dev nD) : (dat3 V c).arrAt 3 cfg3.N = G V c :=
  (dat3 V c).arrAt_eq_of_cover 3 (G V c) (fun t _ => flushed V c t) cover

end Cert.KernelIdeal.Region3

end
-- ==== Proof.Region4.lean ====
/-
  Region 4 of the idealized kernel program: a grid of 20 points, each multiplying one block of 5000 rows.

  The region's first operand is a 100000×64 array fetched 5000 rows at a time, the second the 100000×1 column of
  per-row scales fetched with it, the third a 64×64 array fetched whole, and its result a 100000×64 array written back
  5000 rows at a time. At point t the body leaves in the result's buffer `scaleMatmul` of the three blocks; row y of
  the blocks is row 5000·t + y of the arrays, so that is rows 5000·t … 5000·t + 4999 of `scaleMatmul` of the arrays,
  and the twenty blocks cover the result. So, for whatever contents `V` the region is entered with, its result array
  ends at `scaleMatmul` of the three operand arrays.
-/
import proofs.«146982_j80977313399685_1_alg».proof.Proof.Gen.KernelIdeal.Frame
import proofs.«146982_j80977313399685_1_alg».proof.Proof.Blocks
import Idealize.ShloMosaic.Lib.Pipeline.Value

set_option maxRecDepth 16384

noncomputable section

namespace Cert.KernelIdeal.Region4

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the weights at block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What the region's result array ends at: `scaleMatmul` of its operand arrays as the region finds them. -/
abbrev G (c : Dev nD) : S100000x64.Idx → EReal :=
  scaleMatmul (n := 100000) (d := 64) (o := 64) (V c main_v40) (V c main_v13) (V c main_arg5)

/-- The body's stored value is `scaleMatmul` of the three loaded blocks (the first re-shaped in place, which changes
    nothing). -/
theorem pay (x0 : Vec Ideal S5000x64 .f32) (x1 : Vec Ideal S5000x1 .f32) (x2 : Vec Ideal S64x64 .f32) :
    k4_pay1 x0 x1 x2 = scaleMatmul (n := 5000) (d := 64) (o := 64) x0 x1 x2 := by
  unfold k4_pay1
  rw [shapeCast_self x0 shapeCasts_S5000x64_S5000x64]
  exact body_scaleMatmul dot_S5000x64_S64x64_S5000x64_1_0_0_1_n_n rfl rfl rfl rfl rfl rfl none x0 x1 x2 _ _ _

/-- Row x of the first operand's block at point t is row 5000·t + x of the array. -/
theorem read_rows (c : Dev nD) (t : Fin cfg4.N) (x : S5000x64.Idx) (y : S100000x64.Idx)
    (h0 : (y 0).val = t.val * 5000 + (x 0).val) (h1 : (y 1).val = (x 1).val) :
    (iblk4 V c 0 t : Vec Ideal S5000x64 .f32) x = (V c main_v40 : S100000x64.Idx → EReal) y := by
  obtain ⟨e0, e1, -⟩ := idx_facts t
  unfold iblk4
  rw [View.read_apply]
  show V c main_v40 _ = V c main_v40 _
  refine congrArg _ (funext fun a => Fin.ext ?_)
  match a with
  | ⟨0, _⟩ => show win4_0.index t (0 : Fin 2) * 5000 + 1 * (x 0).val = (y 0).val; rw [e0, h0]; omega
  | ⟨1, _⟩ => show win4_0.index t (1 : Fin 2) * 64 + 1 * (x 1).val = (y 1).val; rw [e1, h1]; omega

/-- Row x of the scales' block at point t is row 5000·t + x of the column. -/
theorem read_scales (c : Dev nD) (t : Fin cfg4.N) (x : S5000x1.Idx) (y : S100000x1.Idx)
    (h0 : (y 0).val = t.val * 5000 + (x 0).val) (h1 : (y 1).val = (x 1).val) :
    (iblk4 V c 1 t : Vec Ideal S5000x1 .f32) x = (V c main_v13 : S100000x1.Idx → EReal) y := by
  obtain ⟨-, -, e0, e1, -⟩ := idx_facts t
  unfold iblk4
  rw [View.read_apply]
  show V c main_v13 _ = V c main_v13 _
  refine congrArg _ (funext fun a => Fin.ext ?_)
  match a with
  | ⟨0, _⟩ => show win4_1.index t (0 : Fin 2) * 5000 + 1 * (x 0).val = (y 0).val; rw [e0, h0]; omega
  | ⟨1, _⟩ => show win4_1.index t (1 : Fin 2) * 1 + 1 * (x 1).val = (y 1).val; rw [e1, h1]; omega

/-- The weights' one block is the whole array. -/
theorem read_weights (c : Dev nD) (t : Fin cfg4.N) (x : S64x64.Idx) :
    (iblk4 V c 2 t : Vec Ideal S64x64 .f32) x = (V c main_arg5 : S64x64.Idx → EReal) x := by
  obtain ⟨-, -, -, -, e0, e1, -⟩ := idx_facts t
  unfold iblk4
  rw [View.read_apply]
  show V c main_arg5 _ = V c main_arg5 _
  refine congrArg _ (funext fun a => Fin.ext ?_)
  match a with
  | ⟨0, _⟩ => show win4_2.index t (0 : Fin 2) * 64 + 1 * (x 0).val = (x 0).val; rw [e0]; omega
  | ⟨1, _⟩ => show win4_2.index t (1 : Fin 2) * 64 + 1 * (x 1).val = (x 1).val; rw [e1]; omega

/-- What point t writes back is block t of `G`. -/
theorem flushed (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S5000x64) hz, View.ld_unit_zero (S := S5000x1) hz, View.ld_unit_zero (S := S64x64) hz]
  rw [pay]
  obtain ⟨-, -, -, -, -, -, e0, e1⟩ := idx_facts t
  funext j
  show scaleMatmul (n := 5000) (d := 64) (o := 64) (iblk4 V c 0 t) (iblk4 V c 1 t) (iblk4 V c 2 t) j
    = G V c (((cfg4.win 3).blk t).view.emb j)
  have hi0 : ((((cfg4.win 3).blk t).view.emb j) 0).val = t.val * 5000 + (j 0).val := by
    show win4_3.index t (0 : Fin 2) * 5000 + 1 * (j 0).val = _; rw [e0]; omega
  have hi1 : ((((cfg4.win 3).blk t).view.emb j) 1).val = (j 1).val := by
    show win4_3.index t (1 : Fin 2) * 64 + 1 * (j 1).val = _; rw [e1]; omega
  refine (congrArg _ (eq_ix2 (n0 := 5000) (n1 := 64) j)).trans
    (Eq.trans ?_ (congrArg (G V c) (eq_ix2 (n0 := 100000) (n1 := 64) (((cfg4.win 3).blk t).view.emb j))).symm)
  exact scaleMatmul_block (n := 100000) (n' := 5000) (d := 64) (o := 64) (V c main_v40) (V c main_v13) (V c main_arg5)
    (iblk4 V c 0 t) (iblk4 V c 1 t) (iblk4 V c 2 t) (j 0) (j 1)
    ((((cfg4.win 3).blk t).view.emb j) 0) ((((cfg4.win 3).blk t).view.emb j) 1)
    (fun k => read_rows V c t (ix2 (j 0) k) (ix2 ((((cfg4.win 3).blk t).view.emb j) 0) k) hi0 rfl)
    (read_scales V c t (ix2 (j 0) 0) (ix2 ((((cfg4.win 3).blk t).view.emb j) 0) 0) hi0 rfl)
    (fun k => (read_weights V c t (ix2 k (j 1))).trans
      (congrArg (fun z : Fin 64 => (V c main_arg5 : S64x64.Idx → EReal) (ix2 k z)) (Fin.ext hi1.symm)))

/-- An index of the result array is in point t's block iff each coordinate is in the block's range on its axis. -/
theorem mem_blk (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v41).slice (win4_3.rect t)).set ↔ _
  rw [View.set_slice_whole, Rect.mem_set_unit]
  exact Iff.rfl

/-- Row r of the result is written back by point r / 5000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, e0, e1⟩ := idx_facts t
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    rw [e0, ht]; omega
  | ⟨1, _⟩ =>
    show win4_3.index t (1 : Fin 2) * 64 ≤ (i 1).val ∧ (i 1).val < win4_3.index t (1 : Fin 2) * 64 + 64
    rw [e1]; omega

/-- The region's result array after its last point. -/
theorem final (c : Dev nD) : (dat4 V c).arrAt 3 cfg4.N = G V c :=
  (dat4 V c).arrAt_eq_of_cover 3 (G V c) (fun t _ => flushed V c t) cover

end Cert.KernelIdeal.Region4

end
-- ==== Proof.Region5.lean ====
/-
  Region 5 of the idealized kernel program: a grid of 20 points, each finishing one block of 5000 rows.

  The region's first operand is a 100000×64 array fetched 5000 rows at a time, the second the 100000×1 column of
  per-row scales fetched with it, the third a 1×64 bias row fetched whole, and its result a 100000×64 array written
  back 5000 rows at a time. At point t the body leaves in the result's buffer `normBiasRelu` of the three blocks; row y
  of the blocks is row 5000·t + y of the arrays, so that is rows 5000·t … 5000·t + 4999 of `normBiasRelu` of the
  arrays, and the twenty blocks cover the result. So, for whatever contents `V` the region is entered with, its result
  array ends at `normBiasRelu` of the three operand arrays.
-/
import proofs.«146982_j80977313399685_1_alg».proof.Proof.Gen.KernelIdeal.Frame
import proofs.«146982_j80977313399685_1_alg».proof.Proof.Blocks
import Idealize.ShloMosaic.Lib.Pipeline.Value

set_option maxRecDepth 16384

noncomputable section

namespace Cert.KernelIdeal.Region5

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the bias row at block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What the region's result array ends at: `normBiasRelu` of its operand arrays as the region finds them. -/
abbrev G (c : Dev nD) : S100000x64.Idx → EReal :=
  normBiasRelu (n := 100000) (o := 64) (V c main_v51) (V c main_v14) (V c main_v52)

/-- The body's stored value is `normBiasRelu` of the three loaded blocks. -/
theorem pay (x0 : Vec Ideal S5000x64 .f32) (x1 : Vec Ideal S5000x1 .f32) (x2 : Vec Ideal S1x64 .f32) :
    k5_pay1 x0 x1 x2 = normBiasRelu (n := 5000) (o := 64) x0 x1 x2 := by
  unfold k5_pay1
  exact body_normBiasRelu x0 x1 x2 _ _ _ _ _

/-- Row x of the first operand's block at point t is row 5000·t + x of the array. -/
theorem read_rows (c : Dev nD) (t : Fin cfg5.N) (x : S5000x64.Idx) (y : S100000x64.Idx)
    (h0 : (y 0).val = t.val * 5000 + (x 0).val) (h1 : (y 1).val = (x 1).val) :
    (iblk5 V c 0 t : Vec Ideal S5000x64 .f32) x = (V c main_v51 : S100000x64.Idx → EReal) y := by
  obtain ⟨e0, e1, -⟩ := idx_facts t
  unfold iblk5
  rw [View.read_apply]
  show V c main_v51 _ = V c main_v51 _
  refine congrArg _ (funext fun a => Fin.ext ?_)
  match a with
  | ⟨0, _⟩ => show win5_0.index t (0 : Fin 2) * 5000 + 1 * (x 0).val = (y 0).val; rw [e0, h0]; omega
  | ⟨1, _⟩ => show win5_0.index t (1 : Fin 2) * 64 + 1 * (x 1).val = (y 1).val; rw [e1, h1]; omega

/-- Row x of the scales' block at point t is row 5000·t + x of the column. -/
theorem read_scales (c : Dev nD) (t : Fin cfg5.N) (x : S5000x1.Idx) (y : S100000x1.Idx)
    (h0 : (y 0).val = t.val * 5000 + (x 0).val) (h1 : (y 1).val = (x 1).val) :
    (iblk5 V c 1 t : Vec Ideal S5000x1 .f32) x = (V c main_v14 : S100000x1.Idx → EReal) y := by
  obtain ⟨-, -, e0, e1, -⟩ := idx_facts t
  unfold iblk5
  rw [View.read_apply]
  show V c main_v14 _ = V c main_v14 _
  refine congrArg _ (funext fun a => Fin.ext ?_)
  match a with
  | ⟨0, _⟩ => show win5_1.index t (0 : Fin 2) * 5000 + 1 * (x 0).val = (y 0).val; rw [e0, h0]; omega
  | ⟨1, _⟩ => show win5_1.index t (1 : Fin 2) * 1 + 1 * (x 1).val = (y 1).val; rw [e1, h1]; omega

/-- The bias row's one block is the whole row. -/
theorem read_bias (c : Dev nD) (t : Fin cfg5.N) (x : S1x64.Idx) :
    (iblk5 V c 2 t : Vec Ideal S1x64 .f32) x = (V c main_v52 : S1x64.Idx → EReal) x := by
  obtain ⟨-, -, -, -, e0, e1, -⟩ := idx_facts t
  unfold iblk5
  rw [View.read_apply]
  show V c main_v52 _ = V c main_v52 _
  refine congrArg _ (funext fun a => Fin.ext ?_)
  match a with
  | ⟨0, _⟩ => show win5_2.index t (0 : Fin 2) * 1 + 1 * (x 0).val = (x 0).val; rw [e0]; omega
  | ⟨1, _⟩ => show win5_2.index t (1 : Fin 2) * 64 + 1 * (x 1).val = (x 1).val; rw [e1]; omega

/-- What point t writes back is block t of `G`. -/
theorem flushed (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S5000x64) hz, View.ld_unit_zero (S := S5000x1) hz, View.ld_unit_zero (S := S1x64) hz]
  rw [pay]
  obtain ⟨-, -, -, -, -, -, e0, e1⟩ := idx_facts t
  funext j
  show normBiasRelu (n := 5000) (o := 64) (iblk5 V c 0 t) (iblk5 V c 1 t) (iblk5 V c 2 t) j
    = G V c (((cfg5.win 3).blk t).view.emb j)
  have hi0 : ((((cfg5.win 3).blk t).view.emb j) 0).val = t.val * 5000 + (j 0).val := by
    show win5_3.index t (0 : Fin 2) * 5000 + 1 * (j 0).val = _; rw [e0]; omega
  have hi1 : ((((cfg5.win 3).blk t).view.emb j) 1).val = (j 1).val := by
    show win5_3.index t (1 : Fin 2) * 64 + 1 * (j 1).val = _; rw [e1]; omega
  refine (congrArg _ (eq_ix2 (n0 := 5000) (n1 := 64) j)).trans
    (Eq.trans ?_ (congrArg (G V c) (eq_ix2 (n0 := 100000) (n1 := 64) (((cfg5.win 3).blk t).view.emb j))).symm)
  exact normBiasRelu_block (n := 100000) (n' := 5000) (o := 64) (V c main_v51) (V c main_v14) (V c main_v52)
    (iblk5 V c 0 t) (iblk5 V c 1 t) (iblk5 V c 2 t) (j 0) (j 1)
    ((((cfg5.win 3).blk t).view.emb j) 0) ((((cfg5.win 3).blk t).view.emb j) 1)
    (read_rows V c t (ix2 (j 0) (j 1)) (ix2 ((((cfg5.win 3).blk t).view.emb j) 0) ((((cfg5.win 3).blk t).view.emb j) 1)) hi0 hi1)
    (read_scales V c t (ix2 (j 0) 0) (ix2 ((((cfg5.win 3).blk t).view.emb j) 0) 0) hi0 rfl)
    ((read_bias V c t (ix2 0 (j 1))).trans
      (congrArg (fun z : Fin 64 => (V c main_v52 : S1x64.Idx → EReal) (ix2 0 z)) (Fin.ext hi1.symm)))

/-- An index of the result array is in point t's block iff each coordinate is in the block's range on its axis. -/
theorem mem_blk (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v53).slice (win5_3.rect t)).set ↔ _
  rw [View.set_slice_whole, Rect.mem_set_unit]
  exact Iff.rfl

/-- Row r of the result is written back by point r / 5000. -/
theorem cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, -, -, e0, e1⟩ := idx_facts t
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    rw [e0, ht]; omega
  | ⟨1, _⟩ =>
    show win5_3.index t (1 : Fin 2) * 64 ≤ (i 1).val ∧ (i 1).val < win5_3.index t (1 : Fin 2) * 64 + 64
    rw [e1]; omega

/-- The region's result array after its last point. -/
theorem final (c : Dev nD) : (dat5 V c).arrAt 3 cfg5.N = G V c :=
  (dat5 V c).arrAt_eq_of_cover 3 (G V c) (fun t _ => flushed V c t) cover

end Cert.KernelIdeal.Region5

end
-- ==== Proof.Walk.lean ====
/-
  The idealized kernel program's result array as a function of its arguments, on the extended reals.

  The buffers are followed from the launch to the return (`Gen.W0` … `Gen.W14`). The stretches of host operations
  before the first region leave the two columns of degree scales (`w5_v13`, `w5_v14`); each of the three layers is then a region that
  scales and multiplies (its result array `scaleMatmul` of its operand arrays), a stretch of host operations that
  gathers and scatter-adds over the edges (`aggregate`) and re-shapes the layer's bias into a row, and a region that
  scales, adds the bias and cuts off at zero (`normBiasRelu`). What a step reads is what an earlier step left, or an
  argument as launched (the buffers no step writes in between: `kept5`, `since6` … `since13`). So the result array
  ends at `network` of the nine arguments.
-/
import proofs.«146982_j80977313399685_1_alg».proof.Proof.Scales
import proofs.«146982_j80977313399685_1_alg».proof.Proof.Stretches
import proofs.«146982_j80977313399685_1_alg».proof.Proof.Region0
import proofs.«146982_j80977313399685_1_alg».proof.Proof.Region1
import proofs.«146982_j80977313399685_1_alg».proof.Proof.Region2
import proofs.«146982_j80977313399685_1_alg».proof.Proof.Region3
import proofs.«146982_j80977313399685_1_alg».proof.Proof.Region4
import proofs.«146982_j80977313399685_1_alg».proof.Proof.Region5
import Idealize.ShloMosaic.Lib.StableHlo.Run

set_option maxRecDepth 16384

noncomputable section

namespace Cert.KernelIdeal.Hand

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first layer -/

/-- Region 0 leaves the scaled features times the first weights. -/
theorem w6_v15 (c : Dev nD) : W6 m ρ c (Proc.devRef .tc main_v15)
    = scaleMatmul (n := 100000) (d := 128) (o := 64) (m ((c : Thread nD τ).loc main_arg0)) (srcScale m c) (m ((c : Thread nD τ).loc main_arg1)) := by
  refine ((W6_arr m ρ c 3).trans (Region0.final (V5 m ρ) c)).trans ?_
  show scaleMatmul (n := 100000) (d := 128) (o := 64) (W5 m ρ c (Proc.devRef .tc main_arg0)) (W5 m ρ c (Proc.devRef .tc main_v13))
    (W5 m ρ c (Proc.devRef .tc main_arg1)) = _
  rw [kept5 m ρ c main_arg0 (by decide), w5_v13, kept5 m ρ c main_arg1 (by decide)]

/-- The stretch after it aggregates over the edges … -/
theorem w7_v25 (c : Dev nD) : W7 m ρ c (Proc.devRef .tc main_v25)
    = aggregate (W6 m ρ c (Proc.devRef .tc main_v15)) (W6 m ρ c (Proc.devRef .tc main_arg7)) (W6 m ρ c (Proc.devRef .tc main_arg8)) := by
  exact hostOps1_main_v25 (W6 m ρ c)

/-- … and re-shapes the first bias into a row. -/
theorem w7_v26 (c : Dev nD) : W7 m ρ c (Proc.devRef .tc main_v26) = shapeCast S1x64 (W6 m ρ c (Proc.devRef .tc main_arg2)) cast_row := by
  exact hostOps1_main_v26 (W6 m ρ c)

/-- Region 1 leaves the first layer's output. -/
theorem w8_v27 (c : Dev nD) : W8 m ρ c (Proc.devRef .tc main_v27)
    = layer (d := 128) (m ((c : Thread nD τ).loc main_arg0)) (m ((c : Thread nD τ).loc main_arg1)) (m ((c : Thread nD τ).loc main_arg2)) (src m c) (dst m c) := by
  refine ((W8_arr m ρ c 3).trans (Region1.final (V7 m ρ) c)).trans ?_
  show normBiasRelu (n := 100000) (o := 64) (W7 m ρ c (Proc.devRef .tc main_v25)) (W7 m ρ c (Proc.devRef .tc main_v14))
    (W7 m ρ c (Proc.devRef .tc main_v26)) = _
  rw [w7_v25, w7_v26, w6_v15, since7 m ρ c main_v14 (by decide), w5_v14,
    since6 m ρ c main_arg7 (by decide), kept5 m ρ c main_arg7 (by decide),
    since6 m ρ c main_arg8 (by decide), kept5 m ρ c main_arg8 (by decide),
    since6 m ρ c main_arg2 (by decide), kept5 m ρ c main_arg2 (by decide)]
  rfl

/-! ## The second layer -/

theorem w9_v28 (c : Dev nD) : W9 m ρ c (Proc.devRef .tc main_v28)
    = scaleMatmul (n := 100000) (d := 64) (o := 64)
        (layer (d := 128) (m ((c : Thread nD τ).loc main_arg0)) (m ((c : Thread nD τ).loc main_arg1)) (m ((c : Thread nD τ).loc main_arg2)) (src m c) (dst m c)) (srcScale m c) (m ((c : Thread nD τ).loc main_arg3)) := by
  refine ((W9_arr m ρ c 3).trans (Region2.final (V8 m ρ) c)).trans ?_
  show scaleMatmul (n := 100000) (d := 64) (o := 64) (W8 m ρ c (Proc.devRef .tc main_v27)) (W8 m ρ c (Proc.devRef .tc main_v13))
    (W8 m ρ c (Proc.devRef .tc main_arg3)) = _
  rw [w8_v27, since8 m ρ c main_v13 (by decide), w5_v13, since8 m ρ c main_arg3 (by decide),
    kept5 m ρ c main_arg3 (by decide)]

theorem w10_v38 (c : Dev nD) : W10 m ρ c (Proc.devRef .tc main_v38)
    = aggregate (W9 m ρ c (Proc.devRef .tc main_v28)) (W9 m ρ c (Proc.devRef .tc main_arg7)) (W9 m ρ c (Proc.devRef .tc main_arg8)) := by
  exact hostOps3_main_v38 (W9 m ρ c)

theorem w10_v39 (c : Dev nD) : W10 m ρ c (Proc.devRef .tc main_v39) = shapeCast S1x64 (W9 m ρ c (Proc.devRef .tc main_arg4)) cast_row := by
  exact hostOps3_main_v39 (W9 m ρ c)

/-- Region 3 leaves the second layer's output. -/
theorem w11_v40 (c : Dev nD) : W11 m ρ c (Proc.devRef .tc main_v40)
    = layer (d := 64) (layer (d := 128) (m ((c : Thread nD τ).loc main_arg0)) (m ((c : Thread nD τ).loc main_arg1)) (m ((c : Thread nD τ).loc main_arg2)) (src m c) (dst m c)) (m ((c : Thread nD τ).loc main_arg3)) (m ((c : Thread nD τ).loc main_arg4))
        (src m c) (dst m c) := by
  refine ((W11_arr m ρ c 3).trans (Region3.final (V10 m ρ) c)).trans ?_
  show normBiasRelu (n := 100000) (o := 64) (W10 m ρ c (Proc.devRef .tc main_v38)) (W10 m ρ c (Proc.devRef .tc main_v14))
    (W10 m ρ c (Proc.devRef .tc main_v39)) = _
  rw [w10_v38, w10_v39, w9_v28, since10 m ρ c main_v14 (by decide), w5_v14,
    since9 m ρ c main_arg7 (by decide), kept5 m ρ c main_arg7 (by decide),
    since9 m ρ c main_arg8 (by decide), kept5 m ρ c main_arg8 (by decide),
    since9 m ρ c main_arg4 (by decide), kept5 m ρ c main_arg4 (by decide)]
  rfl

/-! ## The third layer -/

theorem w12_v41 (c : Dev nD) : W12 m ρ c (Proc.devRef .tc main_v41)
    = scaleMatmul (n := 100000) (d := 64) (o := 64)
        (layer (d := 64) (layer (d := 128) (m ((c : Thread nD τ).loc main_arg0)) (m ((c : Thread nD τ).loc main_arg1)) (m ((c : Thread nD τ).loc main_arg2)) (src m c) (dst m c)) (m ((c : Thread nD τ).loc main_arg3)) (m ((c : Thread nD τ).loc main_arg4))
          (src m c) (dst m c)) (srcScale m c) (m ((c : Thread nD τ).loc main_arg5)) := by
  refine ((W12_arr m ρ c 3).trans (Region4.final (V11 m ρ) c)).trans ?_
  show scaleMatmul (n := 100000) (d := 64) (o := 64) (W11 m ρ c (Proc.devRef .tc main_v40)) (W11 m ρ c (Proc.devRef .tc main_v13))
    (W11 m ρ c (Proc.devRef .tc main_arg5)) = _
  rw [w11_v40, since11 m ρ c main_v13 (by decide), w5_v13, since11 m ρ c main_arg5 (by decide),
    kept5 m ρ c main_arg5 (by decide)]

theorem w13_v51 (c : Dev nD) : W13 m ρ c (Proc.devRef .tc main_v51)
    = aggregate (W12 m ρ c (Proc.devRef .tc main_v41)) (W12 m ρ c (Proc.devRef .tc main_arg7)) (W12 m ρ c (Proc.devRef .tc main_arg8)) := by
  exact hostOps5_main_v51 (W12 m ρ c)

theorem w13_v52 (c : Dev nD) : W13 m ρ c (Proc.devRef .tc main_v52) = shapeCast S1x64 (W12 m ρ c (Proc.devRef .tc main_arg6)) cast_row := by
  exact hostOps5_main_v52 (W12 m ρ c)

/-- Region 5 leaves the network's output: the result array at the return. -/
theorem w14_v53 (c : Dev nD) : W14 m ρ c (Proc.devRef .tc main_v53)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (src m c) (dst m c) := by
  refine ((W14_arr m ρ c 3).trans (Region5.final (V13 m ρ) c)).trans ?_
  show normBiasRelu (n := 100000) (o := 64) (W13 m ρ c (Proc.devRef .tc main_v51)) (W13 m ρ c (Proc.devRef .tc main_v14))
    (W13 m ρ c (Proc.devRef .tc main_v52)) = _
  rw [w13_v51, w13_v52, w12_v41, since13 m ρ c main_v14 (by decide), w5_v14,
    since12 m ρ c main_arg7 (by decide), kept5 m ρ c main_arg7 (by decide),
    since12 m ρ c main_arg8 (by decide), kept5 m ρ c main_arg8 (by decide),
    since12 m ρ c main_arg6 (by decide), kept5 m ρ c main_arg6 (by decide)]
  rfl

end Cert.KernelIdeal.Hand

end
-- ==== Proof.RefValue.lean ====
/-
  The idealized reference program's result as a function of its arguments, on the extended reals.

  The reference's run ends with its result at the composed term of its host operations. Read layer by layer that term
  is three layers as the reference spells them (`hostLayer128`, then `hostLayer64` twice) over the same two degree
  scales, and each is the layer function of its operands; so the result is `network` of the nine arguments.
-/
import proofs.«146982_j80977313399685_1_alg».proof.Proof.Gen.ReferenceIdeal.Run
import proofs.«146982_j80977313399685_1_alg».proof.Proof.Layers

set_option maxRecDepth 16384

noncomputable section

namespace Cert.ReferenceIdeal.RefValue

open Cert.ReferenceIdeal Cert.ReferenceIdeal.Gen Cert.GraphConv
open Idealize.ShloMosaic Idealize.ShloMosaic.TcCoe Idealize.SL.Sem

variable (m : (ℓ : Loc nD τ sig) → Buf (Elt Ideal) ℓ)

/-- The run's result term is the three layers as the program spells them. -/
theorem res_eq_hostLayers (c : Dev nD) : Cert.ReferenceIdeal.Value.res_main_v75 (F := Ideal) m c
    = hostLayer64 (hostLayer64 (hostLayer128 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)))
        (m ((c.tc : Thread nD τ).loc main_arg3)) (m ((c.tc : Thread nD τ).loc main_arg4)) (m ((c.tc : Thread nD τ).loc main_arg7)) (m ((c.tc : Thread nD τ).loc main_arg8))) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v75 hostLayer64 hostLayer128 hostFinish aggregate gatherIdx degNorm
  rfl

/-- So it is the network function of the arguments. -/
theorem res_eq_network (c : Dev nD) : Cert.ReferenceIdeal.Value.res_main_v75 (F := Ideal) m c
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [res_eq_hostLayers, hostLayer128_eq, hostLayer64_eq, hostLayer64_eq]
  rfl

end Cert.ReferenceIdeal.RefValue

end
-- ==== Proof.lean ====
/-
  A pipelined three-layer graph convolution against its plain reference, equal on the extended reals.

  Both programs compute, from node features, three weight matrices with their biases and two edge lists, the same
  network: per-node degree scales from the edge lists; then three times: scale the rows by the source-side scales and
  multiply by the weights, send each edge's source row to the edge and sum the edges' rows at their destinations,
  scale by the destination-side scales, add the bias and cut negative entries off at zero. The reference does all of
  it with whole-array host operations. The kernel program keeps the degree scales and the gather / scatter-add on the
  host and does the two dense parts of each layer in pipelined regions of 20 points, 5000 rows a point; its matrix
  products narrow their operands on the way into the matrix unit, which on the extended reals changes nothing.

  What joins the two sides is that a block of rows of each dense part is that part applied to the block's rows (each
  reads, at a row, only that row of its row-indexed operands), and that a product into a zero accumulator and the
  host's dot_general are the same sum over the contracted index. Sums are taken in any order on the extended reals,
  no distributivity or cancellation is used, and so the precondition is never opened. The ideal pass rewrote nothing,
  so `preserves` asks nothing.
-/
import proofs.«146982_j80977313399685_1_alg».proof.Defs
import proofs.«146982_j80977313399685_1_alg».proof.Proof.Gen.Kernel
import proofs.«146982_j80977313399685_1_alg».proof.Proof.Gen.Kernel.Frame
import proofs.«146982_j80977313399685_1_alg».proof.Proof.Gen.KernelIdeal
import proofs.«146982_j80977313399685_1_alg».proof.Proof.Gen.KernelIdeal.Frame
import proofs.«146982_j80977313399685_1_alg».proof.Proof.Gen.ReferenceIdeal
import proofs.«146982_j80977313399685_1_alg».proof.Proof.Gen.ReferenceIdeal.Run
import proofs.«146982_j80977313399685_1_alg».proof.Proof.Gen.Pre_finite_inputs
import proofs.«146982_j80977313399685_1_alg».proof.Proof.KernelRun
import proofs.«146982_j80977313399685_1_alg».proof.Proof.Walk
import proofs.«146982_j80977313399685_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with their result at the network function
    of the arguments. -/
theorem algebraic : Cert.algebraic_KernelIdeal_ReferenceIdeal := by
  intro m ρ m' ρ' _ hagree
  refine ⟨fun c => Cert.GraphConv.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Hand.w14_v53 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.RefValue.res_eq_network, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
